-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x16x128x256 : Shape := ⟨5, ![2, 8, 16, 128, 256]⟩
abbrev S2x8x1x128x256 : Shape := ⟨5, ![2, 8, 1, 128, 256]⟩
abbrev S_ : Shape := ⟨0, ![]⟩

class Facts : Prop where
  bcast_S_S2x8x16x128x256 : S_.BroadcastsInDim S2x8x16x128x256 (![] : Fin 0 → Fin S2x8x16x128x256.rank)
  reducesTo_S2x8x16x128x256_S_d0_1_2_3_4 : S2x8x16x128x256.ReducesTo [0, 1, 2, 3, 4] S_
  h_S_ : 0 < S_.numel
  bcast_S_S2x8x1x128x256 : S_.BroadcastsInDim S2x8x1x128x256 (![] : Fin 0 → Fin S2x8x1x128x256.rank)
  reducesTo_S2x8x1x128x256_S_d0_1_2_3_4 : S2x8x1x128x256.ReducesTo [0, 1, 2, 3, 4] S_

variable [Facts]

def fn {F : FTy → Type} [FloatOps F] (main_arg0 : FVec F S2x8x16x128x256 .f32) (main_arg1 : FVec F S2x8x1x128x256 .f32) : IVec S_ 1 :=
  let main_v0 : FVec F S2x8x16x128x256 .f32 := Host.absf main_arg0
  let main_cst : FVec F S_ .f32 := constant S_ .f32 0x7F800000#32
  let main_v1 : FVec F S2x8x16x128x256 .f32 := broadcastInDim S2x8x16x128x256 ![] bcast_S_S2x8x16x128x256 main_cst
  let main_v2 : IVec S2x8x16x128x256 1 := cmpf .olt main_v0 main_v1
  let main_c : IVec S_ 1 := constantI S_ 1 1#1
  let main_v3 : IVec S_ 1 := (fun x v => Host.reduce IntOp.andi x v reducesTo_S2x8x16x128x256_S_d0_1_2_3_4 h_S_) main_v2 main_c
  let main_v4 : FVec F S2x8x1x128x256 .f32 := Host.absf main_arg1
  let main_cst_0 : FVec F S_ .f32 := constant S_ .f32 0x7F800000#32
  let main_v5 : FVec F S2x8x1x128x256 .f32 := broadcastInDim S2x8x1x128x256 ![] bcast_S_S2x8x1x128x256 main_cst_0
  let main_v6 : IVec S2x8x1x128x256 1 := cmpf .olt main_v4 main_v5
  let main_c_1 : IVec S_ 1 := constantI S_ 1 1#1
  let main_v7 : IVec S_ 1 := (fun x v => Host.reduce IntOp.andi x v reducesTo_S2x8x1x128x256_S_d0_1_2_3_4 h_S_) main_v6 main_c_1
  let main_v8 : IVec S_ 1 := andi main_v3 main_v7
  main_v8
-- ==== Kernel.lean ====
abbrev S2x8x16x128x256 : Shape := ⟨5, ![2, 8, 16, 128, 256]⟩
abbrev S2x8x1x128x256 : Shape := ⟨5, ![2, 8, 1, 128, 256]⟩
abbrev S2x128x256 : Shape := ⟨3, ![2, 128, 256]⟩
abbrev S1x8x16x32x256 : Shape := ⟨5, ![1, 8, 16, 32, 256]⟩
abbrev S1x8x1x32x256 : Shape := ⟨5, ![1, 8, 1, 32, 256]⟩
abbrev S1x32x256 : Shape := ⟨3, ![1, 32, 256]⟩
abbrev S8x16x32x256 : Shape := ⟨4, ![8, 16, 32, 256]⟩
abbrev S8x1x32x256 : Shape := ⟨4, ![8, 1, 32, 256]⟩
abbrev S8x32x256 : Shape := ⟨3, ![8, 32, 256]⟩
abbrev S8x15x32x256 : Shape := ⟨4, ![8, 15, 32, 256]⟩
abbrev S8x14x32x256 : Shape := ⟨4, ![8, 14, 32, 256]⟩
abbrev S8x13x32x256 : Shape := ⟨4, ![8, 13, 32, 256]⟩
abbrev S8x12x32x256 : Shape := ⟨4, ![8, 12, 32, 256]⟩
abbrev S8x11x32x256 : Shape := ⟨4, ![8, 11, 32, 256]⟩
abbrev S8x10x32x256 : Shape := ⟨4, ![8, 10, 32, 256]⟩
abbrev S8x9x32x256 : Shape := ⟨4, ![8, 9, 32, 256]⟩
abbrev S8x8x32x256 : Shape := ⟨4, ![8, 8, 32, 256]⟩
abbrev S8x7x32x256 : Shape := ⟨4, ![8, 7, 32, 256]⟩
abbrev S8x6x32x256 : Shape := ⟨4, ![8, 6, 32, 256]⟩
abbrev S8x5x32x256 : Shape := ⟨4, ![8, 5, 32, 256]⟩
abbrev S8x4x32x256 : Shape := ⟨4, ![8, 4, 32, 256]⟩
abbrev S8x3x32x256 : Shape := ⟨4, ![8, 3, 32, 256]⟩
abbrev S8x2x32x256 : Shape := ⟨4, ![8, 2, 32, 256]⟩
abbrev S32x256 : Shape := ⟨2, ![32, 256]⟩
abbrev S7x16x32x256 : Shape := ⟨4, ![7, 16, 32, 256]⟩
abbrev S7x32x256 : Shape := ⟨3, ![7, 32, 256]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S2x8x16x128x256, .f32⟩
  | .hbm, ⟨1, _⟩ => ⟨S2x8x1x128x256, .f32⟩
  | .hbm, ⟨2, _⟩ => ⟨S2x128x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x8x16x32x256, .f32⟩
  | .local _ .vmem, ⟨1, _⟩ => ⟨S1x8x16x32x256, .f32⟩
  | .local _ .vmem, ⟨2, _⟩ => ⟨S1x8x1x32x256, .f32⟩
  | .local _ .vmem, ⟨3, _⟩ => ⟨S1x8x1x32x256, .f32⟩
  | .local _ .vmem, ⟨4, _⟩ => ⟨S1x32x256, .f32⟩
  | .local _ .vmem, ⟨5, _⟩ => ⟨S1x32x256, .f32⟩
  | _, _ => ⟨S2x8x16x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x16x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x8x16x32x256_S1x8x16x32x256_0_0_0_0_0 : ∀ a, (![0, 0, 0, 0, 0] : Fin 5 → Nat) a + S1x8x16x32x256.size a ≤ S1x8x16x32x256.size a
  h_S1x8x16x32x256 : 0 < S1x8x16x32x256.numel
  shapeCasts_S1x8x16x32x256_S8x16x32x256 : S1x8x16x32x256.ShapeCasts S8x16x32x256
  inb_S1x8x1x32x256_S1x8x1x32x256_0_0_0_0_0 : ∀ a, (![0, 0, 0, 0, 0] : Fin 5 → Nat) a + S1x8x1x32x256.size a ≤ S1x8x1x32x256.size a
  h_S1x8x1x32x256 : 0 < S1x8x1x32x256.numel
  shapeCasts_S1x8x1x32x256_S8x1x32x256 : S1x8x1x32x256.ShapeCasts S8x1x32x256
  broadcasts_S8x1x32x256_S8x16x32x256 : S8x1x32x256.Broadcasts S8x16x32x256
  reduces_S8x16x32x256_S8x32x256 : S8x16x32x256.Reduces [1] S8x32x256
  slices_S8x16x32x256_o0_0_0_0_S8x1x32x256 : S8x16x32x256.Slices ![0, 0, 0, 0] S8x1x32x256
  slices_S8x16x32x256_o0_1_0_0_S8x15x32x256 : S8x16x32x256.Slices ![0, 1, 0, 0] S8x15x32x256
  broadcasts_S8x1x32x256_S8x15x32x256 : S8x1x32x256.Broadcasts S8x15x32x256
  reduces_S8x15x32x256_S8x32x256 : S8x15x32x256.Reduces [1] S8x32x256
  slices_S8x16x32x256_o0_1_0_0_S8x1x32x256 : S8x16x32x256.Slices ![0, 1, 0, 0] S8x1x32x256
  slices_S8x16x32x256_o0_2_0_0_S8x14x32x256 : S8x16x32x256.Slices ![0, 2, 0, 0] S8x14x32x256
  broadcasts_S8x1x32x256_S8x14x32x256 : S8x1x32x256.Broadcasts S8x14x32x256
  reduces_S8x14x32x256_S8x32x256 : S8x14x32x256.Reduces [1] S8x32x256
  slices_S8x16x32x256_o0_2_0_0_S8x1x32x256 : S8x16x32x256.Slices ![0, 2, 0, 0] S8x1x32x256
  slices_S8x16x32x256_o0_3_0_0_S8x13x32x256 : S8x16x32x256.Slices ![0, 3, 0, 0] S8x13x32x256
  broadcasts_S8x1x32x256_S8x13x32x256 : S8x1x32x256.Broadcasts S8x13x32x256
  reduces_S8x13x32x256_S8x32x256 : S8x13x32x256.Reduces [1] S8x32x256
  slices_S8x16x32x256_o0_3_0_0_S8x1x32x256 : S8x16x32x256.Slices ![0, 3, 0, 0] S8x1x32x256
  slices_S8x16x32x256_o0_4_0_0_S8x12x32x256 : S8x16x32x256.Slices ![0, 4, 0, 0] S8x12x32x256
  broadcasts_S8x1x32x256_S8x12x32x256 : S8x1x32x256.Broadcasts S8x12x32x256
  reduces_S8x12x32x256_S8x32x256 : S8x12x32x256.Reduces [1] S8x32x256
  slices_S8x16x32x256_o0_4_0_0_S8x1x32x256 : S8x16x32x256.Slices ![0, 4, 0, 0] S8x1x32x256
  slices_S8x16x32x256_o0_5_0_0_S8x11x32x256 : S8x16x32x256.Slices ![0, 5, 0, 0] S8x11x32x256
  broadcasts_S8x1x32x256_S8x11x32x256 : S8x1x32x256.Broadcasts S8x11x32x256
  reduces_S8x11x32x256_S8x32x256 : S8x11x32x256.Reduces [1] S8x32x256
  slices_S8x16x32x256_o0_5_0_0_S8x1x32x256 : S8x16x32x256.Slices ![0, 5, 0, 0] S8x1x32x256
  slices_S8x16x32x256_o0_6_0_0_S8x10x32x256 : S8x16x32x256.Slices ![0, 6, 0, 0] S8x10x32x256
  broadcasts_S8x1x32x256_S8x10x32x256 : S8x1x32x256.Broadcasts S8x10x32x256
  reduces_S8x10x32x256_S8x32x256 : S8x10x32x256.Reduces [1] S8x32x256
  slices_S8x16x32x256_o0_6_0_0_S8x1x32x256 : S8x16x32x256.Slices ![0, 6, 0, 0] S8x1x32x256
  slices_S8x16x32x256_o0_7_0_0_S8x9x32x256 : S8x16x32x256.Slices ![0, 7, 0, 0] S8x9x32x256
  broadcasts_S8x1x32x256_S8x9x32x256 : S8x1x32x256.Broadcasts S8x9x32x256
  reduces_S8x9x32x256_S8x32x256 : S8x9x32x256.Reduces [1] S8x32x256
  slices_S8x16x32x256_o0_7_0_0_S8x1x32x256 : S8x16x32x256.Slices ![0, 7, 0, 0] S8x1x32x256
  slices_S8x16x32x256_o0_8_0_0_S8x8x32x256 : S8x16x32x256.Slices ![0, 8, 0, 0] S8x8x32x256
  broadcasts_S8x1x32x256_S8x8x32x256 : S8x1x32x256.Broadcasts S8x8x32x256
  reduces_S8x8x32x256_S8x32x256 : S8x8x32x256.Reduces [1] S8x32x256
  slices_S8x16x32x256_o0_8_0_0_S8x1x32x256 : S8x16x32x256.Slices ![0, 8, 0, 0] S8x1x32x256
  slices_S8x16x32x256_o0_9_0_0_S8x7x32x256 : S8x16x32x256.Slices ![0, 9, 0, 0] S8x7x32x256
  broadcasts_S8x1x32x256_S8x7x32x256 : S8x1x32x256.Broadcasts S8x7x32x256
  reduces_S8x7x32x256_S8x32x256 : S8x7x32x256.Reduces [1] S8x32x256
  slices_S8x16x32x256_o0_9_0_0_S8x1x32x256 : S8x16x32x256.Slices ![0, 9, 0, 0] S8x1x32x256
  slices_S8x16x32x256_o0_10_0_0_S8x6x32x256 : S8x16x32x256.Slices ![0, 10, 0, 0] S8x6x32x256
  broadcasts_S8x1x32x256_S8x6x32x256 : S8x1x32x256.Broadcasts S8x6x32x256
  reduces_S8x6x32x256_S8x32x256 : S8x6x32x256.Reduces [1] S8x32x256
  slices_S8x16x32x256_o0_10_0_0_S8x1x32x256 : S8x16x32x256.Slices ![0, 10, 0, 0] S8x1x32x256
  slices_S8x16x32x256_o0_11_0_0_S8x5x32x256 : S8x16x32x256.Slices ![0, 11, 0, 0] S8x5x32x256
  broadcasts_S8x1x32x256_S8x5x32x256 : S8x1x32x256.Broadcasts S8x5x32x256
  reduces_S8x5x32x256_S8x32x256 : S8x5x32x256.Reduces [1] S8x32x256
  slices_S8x16x32x256_o0_11_0_0_S8x1x32x256 : S8x16x32x256.Slices ![0, 11, 0, 0] S8x1x32x256
  slices_S8x16x32x256_o0_12_0_0_S8x4x32x256 : S8x16x32x256.Slices ![0, 12, 0, 0] S8x4x32x256
  broadcasts_S8x1x32x256_S8x4x32x256 : S8x1x32x256.Broadcasts S8x4x32x256
  reduces_S8x4x32x256_S8x32x256 : S8x4x32x256.Reduces [1] S8x32x256
  slices_S8x16x32x256_o0_12_0_0_S8x1x32x256 : S8x16x32x256.Slices ![0, 12, 0, 0] S8x1x32x256
  slices_S8x16x32x256_o0_13_0_0_S8x3x32x256 : S8x16x32x256.Slices ![0, 13, 0, 0] S8x3x32x256
  broadcasts_S8x1x32x256_S8x3x32x256 : S8x1x32x256.Broadcasts S8x3x32x256
  reduces_S8x3x32x256_S8x32x256 : S8x3x32x256.Reduces [1] S8x32x256
  slices_S8x16x32x256_o0_13_0_0_S8x1x32x256 : S8x16x32x256.Slices ![0, 13, 0, 0] S8x1x32x256
  slices_S8x16x32x256_o0_14_0_0_S8x2x32x256 : S8x16x32x256.Slices ![0, 14, 0, 0] S8x2x32x256
  broadcasts_S8x1x32x256_S8x2x32x256 : S8x1x32x256.Broadcasts S8x2x32x256
  reduces_S8x2x32x256_S8x32x256 : S8x2x32x256.Reduces [1] S8x32x256
  slices_S8x16x32x256_o0_14_0_0_S8x1x32x256 : S8x16x32x256.Slices ![0, 14, 0, 0] S8x1x32x256
  slices_S8x16x32x256_o0_15_0_0_S8x1x32x256 : S8x16x32x256.Slices ![0, 15, 0, 0] S8x1x32x256
  reduces_S8x1x32x256_S8x32x256 : S8x1x32x256.Reduces [1] S8x32x256
  reduces_S8x32x256_S32x256 : S8x32x256.Reduces [0] S32x256
  slices_S8x16x32x256_o1_0_0_0_S7x16x32x256 : S8x16x32x256.Slices ![1, 0, 0, 0] S7x16x32x256
  slices_S8x16x32x256_o0_0_0_0_S7x16x32x256 : S8x16x32x256.Slices ![0, 0, 0, 0] S7x16x32x256
  reduces_S7x16x32x256_S7x32x256 : S7x16x32x256.Reduces [1] S7x32x256
  reduces_S7x32x256_S32x256 : S7x32x256.Reduces [0] S32x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  shapeCasts_S32x256_S1x32x256 : S32x256.ShapeCasts S1x32x256
  reducesTo_S2x128x256_S_d0_1_2 : S2x128x256.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x16x32x256.size a ≤ S2x8x16x128x256.size a
  hwx0_0 : ∀ i : grid0.Coords, EltTy.bits .f32 = 32 ∨ (Rect.block (s := S2x8x16x128x256) S1x8x16x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1x32x256.size a ≤ S2x8x1x128x256.size a
  hwx0_1 : ∀ i : grid0.Coords, EltTy.bits .f32 = 32 ∨ (Rect.block (s := S2x8x1x128x256) S1x8x1x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x256.size a ≤ S2x128x256.size a
  hwx0_2 : ∀ i : grid0.Coords, EltTy.bits .f32 = 32 ∨ (Rect.block (s := S2x128x256) S1x32x256.size (cc0_transform_2 i) (hinb0_2 i)).WholeWords (EltTy.packing .f32)

variable [Facts₀]

abbrev win0_0 : Pipeline.Window sig grid0 :=
  Pipeline.Window.ofSpec (Memref.whole main_arg0) S1x8x16x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x1x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x8x16x128x256 : Shape := ⟨5, ![2, 8, 16, 128, 256]⟩
abbrev S2x8x1x128x256 : Shape := ⟨5, ![2, 8, 1, 128, 256]⟩
abbrev S_ : Shape := ⟨0, ![]⟩
abbrev S2x8x128x256 : Shape := ⟨4, ![2, 8, 128, 256]⟩
abbrev S2x8x16x1x128x256 : Shape := ⟨6, ![2, 8, 16, 1, 128, 256]⟩
abbrev S2x8x1x16x128x256 : Shape := ⟨6, ![2, 8, 1, 16, 128, 256]⟩
abbrev S2x8x16x16x128x256 : Shape := ⟨6, ![2, 8, 16, 16, 128, 256]⟩
abbrev S2x128x256 : Shape := ⟨3, ![2, 128, 256]⟩
abbrev S2x7x16x128x256 : Shape := ⟨5, ![2, 7, 16, 128, 256]⟩
abbrev S2x1x1x128x256 : Shape := ⟨5, ![2, 1, 1, 128, 256]⟩

abbrev nBuf : Space → Nat
  | .hbm => 48
  | .vmem => 0
  | .smem => 0
  | _ => 0

abbrev bufTy : (tb : Table) → Fin (tcTables nBuf tb) → BufTy
  | .hbm, ⟨0, _⟩ => ⟨S2x8x16x128x256, .f32⟩
  | .hbm, ⟨1, _⟩ => ⟨S2x8x1x128x256, .f32⟩
  | .hbm, ⟨2, _⟩ => ⟨S2x8x16x128x256, .f32⟩
  | .hbm, ⟨3, _⟩ => ⟨S2x8x16x128x256, .f32⟩
  | .hbm, ⟨4, _⟩ => ⟨S2x8x16x128x256, .f32⟩
  | .hbm, ⟨5, _⟩ => ⟨S_, .f32⟩
  | .hbm, ⟨6, _⟩ => ⟨S2x8x128x256, .f32⟩
  | .hbm, ⟨7, _⟩ => ⟨S_, .f32⟩
  | .hbm, ⟨8, _⟩ => ⟨S2x8x128x256, .f32⟩
  | .hbm, ⟨9, _⟩ => ⟨S2x8x128x256, .f32⟩
  | .hbm, ⟨10, _⟩ => ⟨S2x8x16x1x128x256, .f32⟩
  | .hbm, ⟨11, _⟩ => ⟨S2x8x1x16x128x256, .f32⟩
  | .hbm, ⟨12, _⟩ => ⟨S2x8x16x16x128x256, .f32⟩
  | .hbm, ⟨13, _⟩ => ⟨S2x8x16x16x128x256, .f32⟩
  | .hbm, ⟨14, _⟩ => ⟨S2x8x16x16x128x256, .f32⟩
  | .hbm, ⟨15, _⟩ => ⟨S2x8x16x16x128x256, .f32⟩
  | .hbm, ⟨16, _⟩ => ⟨S_, .f32⟩
  | .hbm, ⟨17, _⟩ => ⟨S2x8x128x256, .f32⟩
  | .hbm, ⟨18, _⟩ => ⟨S_, .f32⟩
  | .hbm, ⟨19, _⟩ => ⟨S2x8x128x256, .f32⟩
  | .hbm, ⟨20, _⟩ => ⟨S2x8x128x256, .f32⟩
  | .hbm, ⟨21, _⟩ => ⟨S_, .f32⟩
  | .hbm, ⟨22, _⟩ => ⟨S2x8x128x256, .f32⟩
  | .hbm, ⟨23, _⟩ => ⟨S2x8x128x256, .f32⟩
  | .hbm, ⟨24, _⟩ => ⟨S2x8x128x256, .f32⟩
  | .hbm, ⟨25, _⟩ => ⟨S_, .f32⟩
  | .hbm, ⟨26, _⟩ => ⟨S2x128x256, .f32⟩
  | .hbm, ⟨27, _⟩ => ⟨S_, .f32⟩
  | .hbm, ⟨28, _⟩ => ⟨S2x128x256, .f32⟩
  | .hbm, ⟨29, _⟩ => ⟨S2x128x256, .f32⟩
  | .hbm, ⟨30, _⟩ => ⟨S2x7x16x128x256, .f32⟩
  | .hbm, ⟨31, _⟩ => ⟨S2x7x16x128x256, .f32⟩
  | .hbm, ⟨32, _⟩ => ⟨S2x7x16x128x256, .f32⟩
  | .hbm, ⟨33, _⟩ => ⟨S2x7x16x128x256, .f32⟩
  | .hbm, ⟨34, _⟩ => ⟨S_, .f32⟩
  | .hbm, ⟨35, _⟩ => ⟨S2x128x256, .f32⟩
  | .hbm, ⟨36, _⟩ => ⟨S_, .f32⟩
  | .hbm, ⟨37, _⟩ => ⟨S2x128x256, .f32⟩
  | .hbm, ⟨38, _⟩ => ⟨S2x128x256, .f32⟩
  | .hbm, ⟨39, _⟩ => ⟨S_, .f32⟩
  | .hbm, ⟨40, _⟩ => ⟨S2x128x256, .f32⟩
  | .hbm, ⟨41, _⟩ => ⟨S2x128x256, .f32⟩
  | .hbm, ⟨42, _⟩ => ⟨S2x128x256, .f32⟩
  | .hbm, ⟨43, _⟩ => ⟨S2x1x1x128x256, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S2x8x16x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S2x8x1x128x256_S2x8x16x128x256_0_1_2_3_4 : S2x8x1x128x256.BroadcastsInDim S2x8x16x128x256 (![0, 1, 2, 3, 4] : Fin 5 → Fin S2x8x16x128x256.rank)
  reducesTo_S2x8x16x128x256_S2x8x128x256_d2 : S2x8x16x128x256.ReducesTo [2] S2x8x128x256
  h_S_ : 0 < S_.numel
  bcast_S_S2x8x128x256 : S_.BroadcastsInDim S2x8x128x256 (![] : Fin 0 → Fin S2x8x128x256.rank)
  bcast_S2x8x16x128x256_S2x8x16x1x128x256_0_1_2_4_5 : S2x8x16x128x256.BroadcastsInDim S2x8x16x1x128x256 (![0, 1, 2, 4, 5] : Fin 5 → Fin S2x8x16x1x128x256.rank)
  bcast_S2x8x16x128x256_S2x8x1x16x128x256_0_1_3_4_5 : S2x8x16x128x256.BroadcastsInDim S2x8x1x16x128x256 (![0, 1, 3, 4, 5] : Fin 5 → Fin S2x8x1x16x128x256.rank)
  bcast_S2x8x16x1x128x256_S2x8x16x16x128x256_0_1_2_3_4_5 : S2x8x16x1x128x256.BroadcastsInDim S2x8x16x16x128x256 (![0, 1, 2, 3, 4, 5] : Fin 6 → Fin S2x8x16x16x128x256.rank)
  bcast_S2x8x1x16x128x256_S2x8x16x16x128x256_0_1_2_3_4_5 : S2x8x1x16x128x256.BroadcastsInDim S2x8x16x16x128x256 (![0, 1, 2, 3, 4, 5] : Fin 6 → Fin S2x8x16x16x128x256.rank)
  reducesTo_S2x8x16x16x128x256_S2x8x128x256_d2_3 : S2x8x16x16x128x256.ReducesTo [2, 3] S2x8x128x256
  reducesTo_S2x8x128x256_S2x128x256_d1 : S2x8x128x256.ReducesTo [1] S2x128x256
  bcast_S_S2x128x256 : S_.BroadcastsInDim S2x128x256 (![] : Fin 0 → Fin S2x128x256.rank)
  slices_S2x8x16x128x256_S2x7x16x128x256_0_1_0_0_0 : S2x8x16x128x256.Slices ![0, 1, 0, 0, 0] S2x7x16x128x256
  slices_S2x8x16x128x256_S2x7x16x128x256_0_0_0_0_0 : S2x8x16x128x256.Slices ![0, 0, 0, 0, 0] S2x7x16x128x256
  reducesTo_S2x7x16x128x256_S2x128x256_d1_2 : S2x7x16x128x256.ReducesTo [1, 2] S2x128x256
  bcast_S2x128x256_S2x1x1x128x256_0_3_4 : S2x128x256.BroadcastsInDim S2x1x1x128x256 (![0, 3, 4] : Fin 3 → Fin S2x1x1x128x256.rank)
  reducesTo_S2x1x1x128x256_S_d0_1_2_3_4 : S2x1x1x128x256.ReducesTo [0, 1, 2, 3, 4] S_

variable [Facts₀]

class Facts : Prop extends Facts₀ where

variable [Facts]
-- ==== Proof.Consts.lean ====
/-
  The float constants the two programs spell, as the extended reals their bit patterns denote at the
  ideal instance. The kernel divides by 16, 8 and 7 and multiplies by 2⁻⁸; the reference divides by 16, 256,
  8, 112 and 65536 and multiplies by 1/2. The pattern of 0.1 is the same word on both sides and is never
  evaluated.
-/
import Idealize.ShloMosaic.PureOps.Ideal

noncomputable section

namespace Cert.Crps.Consts

open Idealize.ShloMosaic

theorem ofBits_zero : Ideal.ofBits .f32 0x00000000#32 = 0 := by
  simp [Ideal.ofBits, Ideal.ieee]

theorem ofBits_16 : Ideal.ofBits .f32 0x41800000#32 = ((16 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem ofBits_7 : Ideal.ofBits .f32 0x40E00000#32 = ((7 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_112 : Ideal.ofBits .f32 0x42E00000#32 = ((112 : ℝ) : EReal) := by
  simp [Ideal.ofBits, Ideal.ieee, -EReal.coe_mul]; norm_num

theorem ofBits_65536 : Ideal.ofBits .f32 0x47800000#32 = ((65536 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The kernel's folded reciprocal of 16² is the dyadic 2⁻⁸ exactly, that is 1/256. -/
theorem ofBits_inv256 : Ideal.ofBits .f32 0x3B800000#32 = ((1 / 256 : ℝ) : EReal) := by
  simp [Ideal.ofBits, Ideal.ieee, -EReal.coe_mul]; norm_num

end Cert.Crps.Consts

end
-- ==== Proof.LibAbsPairSums.lean ====
/-
  Finite sums of absolute differences, over the reals and carried to the extended reals.

  * a real finite sum, coerced, is the sum of the coerced terms;
  * on the extended reals `max x (-x)` of a real is the real absolute value, and a difference of reals is real;
  * the sum of |f i - f j| over all ordered pairs of [0, n) is twice the sum over the pairs i < j, the latter
    arranged by the smaller index: for each i the tail j = i + 1 + k, k < n - 1 - i. Proved by peeling the first
    index off both sides.
-/
import Mathlib.Data.EReal.Inv
import Mathlib.Algebra.BigOperators.Intervals
import Mathlib.Algebra.Order.BigOperators.Group.Finset
import Mathlib.Tactic.Ring
import Mathlib.Tactic.Linarith

namespace Cert.Crps.AbsPairSums

open Finset

/-- A finite sum of reals, read on the extended reals, is the sum of the terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The extended reals' `max x (-x)` at a real is the real absolute value. -/
theorem max_neg_coe (a : ℝ) : max (a : EReal) (-(a : EReal)) = ((|a| : ℝ) : EReal) := by
  rw [abs_eq_max_neg, EReal.coe_strictMono.monotone.map_max, EReal.coe_neg]

/-- All ordered pairs against the pairs i < j taken by the smaller index. -/
theorem pair_sum (n : ℕ) : ∀ f : ℕ → ℝ,
    ∑ i ∈ range n, ∑ j ∈ range n, |f i - f j|
      = 2 * ∑ i ∈ range n, ∑ k ∈ range (n - 1 - i), |f (i + 1 + k) - f i| := by
  induction n with
  | zero => intro f; simp
  | succ n ih =>
    intro f
    have h1 : ∑ i ∈ range (n + 1), ∑ j ∈ range (n + 1), |f i - f j|
        = ∑ i ∈ range n, ∑ j ∈ range n, |f (i + 1) - f (j + 1)| + 2 * ∑ k ∈ range n, |f (k + 1) - f 0| := by
      simp only [sum_range_succ']
      rw [sum_add_distrib, sub_self, abs_zero, add_zero]
      have e : ∑ j ∈ range n, |f 0 - f (j + 1)| = ∑ j ∈ range n, |f (j + 1) - f 0| :=
        sum_congr rfl fun j _ => abs_sub_comm _ _
      rw [e]; ring
    have h2 : ∑ i ∈ range (n + 1), ∑ k ∈ range (n + 1 - 1 - i), |f (i + 1 + k) - f i|
        = ∑ i ∈ range n, ∑ k ∈ range (n - 1 - i), |f (i + 1 + k + 1) - f (i + 1)|
          + ∑ k ∈ range n, |f (k + 1) - f 0| := by
      rw [sum_range_succ']
      congr 1
      · refine sum_congr rfl fun i _ => ?_
        rw [show n + 1 - 1 - (i + 1) = n - 1 - i by omega]
        refine sum_congr rfl fun k _ => ?_
        rw [show i + 1 + 1 + k = i + 1 + k + 1 by omega]
      · rw [show n + 1 - 1 - 0 = n by omega]
        refine sum_congr rfl fun k _ => ?_
        rw [show 0 + 1 + k = k + 1 by omega]
    have e := ih (fun i => f (i + 1))
    beta_reduce at e
    rw [h1, h2, e]; ring

end Cert.Crps.AbsPairSums
-- ==== Proof.PixelSpec.lean ====
/-
  The loss at one pixel, as a function of the sixteen ensemble members p t m (eight time steps t) and the
  target y t there, on the extended reals, in the two arrangements the programs compute it in.

  * `kernelPix`: the pair term is the sum over the unordered pairs i < j of |p j - p i|, accumulated member by
    member (for each i the tail j = i + 1 + k) and scaled by 2⁻⁸; the temporal term averages over the members
    first (a division by 16) and then over the seven steps (a division by 7).
  * `refPix`: the pair term is half of the sum over all 16 × 16 ordered pairs divided by 256; the temporal term
    is one sum over the 7 × 16 pairs (step, member) divided by 112.

  When every entry is a real number the two agree (`pix_eq`): the ordered-pair sum is twice the unordered one
  (the diagonal vanishes, |a - b| = |b - a|), and dividing by 16 and then by 7 is dividing by 112. The factor
  0.1 is the same float word on both sides and is carried unevaluated.
-/
import Idealize.ShloMosaic.PureOps.Ideal
import Idealize.ShloMosaic.Lib.ValueIdx
import proofs.«132029_j53455162966139_2_alg».proof.Proof.Consts
import proofs.«132029_j53455162966139_2_alg».proof.Proof.LibAbsPairSums

noncomputable section

namespace Cert.Crps.PixelSpec

open Idealize.ShloMosaic Finset

/-- The absolute value as both programs compute it on the extended reals. -/
def eabs (x : EReal) : EReal := max x (-x)

/-- For the member `o`: the sum over a run of `n` members starting at `o1` of the distance to member `o`. -/
def tails (c : ℕ → EReal) (o1 o n : ℕ) : EReal := ∑ k ∈ range n, eabs (c (o1 + k) - c o)

/-- The kernel's accumulator over the unordered pairs: started at `z`, one tail per smaller member. -/
def pairAcc (z : EReal) (c : ℕ → EReal) : EReal :=
  z + tails c 1 0 15 + tails c 2 1 14 + tails c 3 2 13 + tails c 4 3 12 + tails c 5 4 11 + tails c 6 5 10
    + tails c 7 6 9 + tails c 8 7 8 + tails c 9 8 7 + tails c 10 9 6 + tails c 11 10 5 + tails c 12 11 4
    + tails c 13 12 3 + tails c 14 13 2 + tails c 15 14 1

/-- The pixel's value as the kernel computes it. -/
def kernelPix (p : Fin 8 → ℕ → EReal) (y : Fin 8 → EReal) : EReal :=
  Ideal.div (∑ t : Fin 8,
      (Ideal.div (∑ m : Fin 16, eabs (p t m - y t)) (Ideal.ofBits .f32 0x41800000#32)
        - pairAcc (Ideal.ofBits .f32 0x00000000#32) (p t) * Ideal.ofBits .f32 0x3B800000#32))
      (Ideal.ofBits .f32 0x41000000#32)
    + Ideal.ofBits .f32 0x3DCCCCCD#32
      * Ideal.div (∑ t : Fin 7, Ideal.div (∑ m : Fin 16, eabs (p t.succ m - p t.castSucc m))
          (Ideal.ofBits .f32 0x41800000#32)) (Ideal.ofBits .f32 0x40E00000#32)

/-- The pixel's value as the reference computes it. -/
def refPix (p : Fin 8 → ℕ → EReal) (y : Fin 8 → EReal) : EReal :=
  Ideal.div (Ideal.ofBits .f32 0x00000000#32 + ∑ t : Fin 8,
      (Ideal.div (Ideal.ofBits .f32 0x00000000#32 + ∑ m : Fin 16, eabs (p t m - y t)) (Ideal.ofBits .f32 0x41800000#32)
        - Ideal.ofBits .f32 0x3F000000#32
          * Ideal.div (Ideal.ofBits .f32 0x00000000#32 + ∑ ij : Fin 16 × Fin 16, eabs (p t ij.1 - p t ij.2))
              (Ideal.ofBits .f32 0x43800000#32)))
      (Ideal.ofBits .f32 0x41000000#32)
    + Ideal.ofBits .f32 0x3DCCCCCD#32
      * Ideal.div (Ideal.ofBits .f32 0x00000000#32
          + ∑ tm : Fin 7 × Fin 16, eabs (p tm.1.succ tm.2 - p tm.1.castSucc tm.2))
          (Ideal.ofBits .f32 0x42E00000#32)

/-! ## The two arrays at a pixel -/

open Idealize.ShloMosaic.ValueIdx in
/-- Member `m` at step `t` of the predictions at pixel (b, h, w); zero past the sixteenth member. -/
def memberAt (P : (⟨5, ![2, 8, 16, 128, 256]⟩ : Shape).Idx → EReal) (b : Fin 2) (h : Fin 128) (w : Fin 256)
    (t : Fin 8) (m : ℕ) : EReal :=
  if hm : m < 16 then P (ix5 b t ⟨m, hm⟩ h w) else 0

open Idealize.ShloMosaic.ValueIdx in
/-- The target at step `t` at pixel (b, h, w). -/
def targetAt (Y : (⟨5, ![2, 8, 1, 128, 256]⟩ : Shape).Idx → EReal) (b : Fin 2) (h : Fin 128) (w : Fin 256)
    (t : Fin 8) : EReal :=
  Y (ix5 b t (0 : Fin 1) h w)

open Idealize.ShloMosaic.ValueIdx in
theorem memberAt_of_lt (P : (⟨5, ![2, 8, 16, 128, 256]⟩ : Shape).Idx → EReal) (b : Fin 2) (h : Fin 128) (w : Fin 256)
    (t : Fin 8) (m : Fin 16) : memberAt P b h w t m = P (ix5 b t m h w) := dif_pos m.isLt

/-- The per-pixel loss array as the kernel computes it, and as the reference does. -/
def kernelLoss (P : (⟨5, ![2, 8, 16, 128, 256]⟩ : Shape).Idx → EReal) (Y : (⟨5, ![2, 8, 1, 128, 256]⟩ : Shape).Idx → EReal) :
    (⟨3, ![2, 128, 256]⟩ : Shape).Idx → EReal :=
  fun i => kernelPix (memberAt P (i 0) (i 1) (i 2)) (targetAt Y (i 0) (i 1) (i 2))

def refLoss (P : (⟨5, ![2, 8, 16, 128, 256]⟩ : Shape).Idx → EReal) (Y : (⟨5, ![2, 8, 1, 128, 256]⟩ : Shape).Idx → EReal) :
    (⟨3, ![2, 128, 256]⟩ : Shape).Idx → EReal :=
  fun i => refPix (memberAt P (i 0) (i 1) (i 2)) (targetAt Y (i 0) (i 1) (i 2))

open Cert.Crps.AbsPairSums Cert.Crps.Consts

theorem eabs_coe_sub (a b : ℝ) : eabs ((a : EReal) - (b : EReal)) = ((|a - b| : ℝ) : EReal) := by
  unfold eabs; rw [← EReal.coe_sub, max_neg_coe]

/-- A tail of real members is the real tail. -/
theorem tails_coe (f : ℕ → ℝ) (o1 o n : ℕ) :
    tails (fun m => (f m : EReal)) o1 o n = ((∑ k ∈ range n, |f (o1 + k) - f o| : ℝ) : EReal) := by
  unfold tails; rw [coe_sum]; exact sum_congr rfl fun k _ => eabs_coe_sub _ _

/-- Sixteen terms, written out. -/
theorem sum_range_16 (g : ℕ → ℝ) :
    ∑ i ∈ range 16, g i = 0 + g 0 + g 1 + g 2 + g 3 + g 4 + g 5 + g 6 + g 7 + g 8 + g 9 + g 10 + g 11 + g 12 + g 13
      + g 14 + g 15 := by
  simp only [sum_range_succ, sum_range_zero]

/-- The unordered-pair accumulator of real members, from zero, is half the ordered-pair sum. -/
theorem pairAcc_real (f : ℕ → ℝ) :
    (0 + ∑ k ∈ range 15, |f (1 + k) - f 0| + ∑ k ∈ range 14, |f (2 + k) - f 1| + ∑ k ∈ range 13, |f (3 + k) - f 2|
      + ∑ k ∈ range 12, |f (4 + k) - f 3| + ∑ k ∈ range 11, |f (5 + k) - f 4| + ∑ k ∈ range 10, |f (6 + k) - f 5|
      + ∑ k ∈ range 9, |f (7 + k) - f 6| + ∑ k ∈ range 8, |f (8 + k) - f 7| + ∑ k ∈ range 7, |f (9 + k) - f 8|
      + ∑ k ∈ range 6, |f (10 + k) - f 9| + ∑ k ∈ range 5, |f (11 + k) - f 10| + ∑ k ∈ range 4, |f (12 + k) - f 11|
      + ∑ k ∈ range 3, |f (13 + k) - f 12| + ∑ k ∈ range 2, |f (14 + k) - f 13| + ∑ k ∈ range 1, |f (15 + k) - f 14| : ℝ)
      = (1 / 2) * ∑ i ∈ range 16, ∑ j ∈ range 16, |f i - f j| := by
  rw [pair_sum 16 f, sum_range_16]
  simp only [Nat.reduceAdd, Nat.reduceSub, sum_range_zero, add_zero]
  ring

/-- A run of members that stays inside the sixteen, all real, has a real tail. -/
theorem tails_real (c : ℕ → EReal) (f : ℕ → ℝ) (hc : ∀ m, m < 16 → c m = (f m : EReal)) (o1 o n : ℕ)
    (h1 : o1 + n ≤ 16) (ho : o < 16) :
    tails c o1 o n = ((∑ k ∈ range n, |f (o1 + k) - f o| : ℝ) : EReal) := by
  unfold tails; rw [coe_sum]
  refine sum_congr rfl fun k hk => ?_
  have hk' : k < n := mem_range.1 hk
  rw [hc (o1 + k) (by omega), hc o ho, eabs_coe_sub]

/-- The accumulator of real members is real: the real accumulator. -/
theorem pairAcc_coe (c : ℕ → EReal) (f : ℕ → ℝ) (hc : ∀ m, m < 16 → c m = (f m : EReal)) :
    pairAcc (Ideal.ofBits .f32 0x00000000#32) c
      = (((1 / 2) * ∑ i ∈ range 16, ∑ j ∈ range 16, |f i - f j| : ℝ) : EReal) := by
  rw [← pairAcc_real f]
  unfold pairAcc
  rw [ofBits_zero, tails_real c f hc 1 0 15 (by omega) (by omega), tails_real c f hc 2 1 14 (by omega) (by omega),
    tails_real c f hc 3 2 13 (by omega) (by omega), tails_real c f hc 4 3 12 (by omega) (by omega),
    tails_real c f hc 5 4 11 (by omega) (by omega), tails_real c f hc 6 5 10 (by omega) (by omega),
    tails_real c f hc 7 6 9 (by omega) (by omega), tails_real c f hc 8 7 8 (by omega) (by omega),
    tails_real c f hc 9 8 7 (by omega) (by omega), tails_real c f hc 10 9 6 (by omega) (by omega),
    tails_real c f hc 11 10 5 (by omega) (by omega), tails_real c f hc 12 11 4 (by omega) (by omega),
    tails_real c f hc 13 12 3 (by omega) (by omega), tails_real c f hc 14 13 2 (by omega) (by omega),
    tails_real c f hc 15 14 1 (by omega) (by omega)]
  simp only [EReal.coe_add, EReal.coe_zero]

/-- A division by a nonzero real constant, of a real, is real. -/
theorem div_coe_coe (a : ℝ) {d : ℝ} (hd : d ≠ 0) : Ideal.div (a : EReal) (d : EReal) = ((a * (1 / d) : ℝ) : EReal) := by
  rw [Ideal.div_coe hd, ← EReal.coe_mul]

/-- For real entries the two arrangements of the pixel's value agree. -/
theorem pix_eq (p : Fin 8 → ℕ → EReal) (y : Fin 8 → EReal)
    (hp : ∀ t m, m < 16 → ∃ r : ℝ, p t m = (r : EReal)) (hy : ∀ t, ∃ r : ℝ, y t = (r : EReal)) :
    kernelPix p y = refPix p y := by
  have hp' : ∀ t m, ∃ r : ℝ, m < 16 → p t m = (r : EReal) := fun t m => by
    by_cases h : m < 16
    · obtain ⟨r, hr⟩ := hp t m h; exact ⟨r, fun _ => hr⟩
    · exact ⟨0, fun h' => absurd h' h⟩
  choose f hf using hp'
  choose g hg using hy
  -- the three kinds of inner sums, as reals
  have hA : ∀ t, ∑ m : Fin 16, eabs (p t m - y t) = ((∑ m : Fin 16, |f t m - g t| : ℝ) : EReal) := fun t => by
    rw [coe_sum]; exact sum_congr rfl fun m _ => by rw [hf t m m.isLt, hg t, eabs_coe_sub]
  have hB : ∀ t : Fin 7, ∑ m : Fin 16, eabs (p t.succ m - p t.castSucc m)
      = ((∑ m : Fin 16, |f t.succ m - f t.castSucc m| : ℝ) : EReal) := fun t => by
    rw [coe_sum]; exact sum_congr rfl fun m _ => by rw [hf t.succ m m.isLt, hf t.castSucc m m.isLt, eabs_coe_sub]
  have hC : ∀ t, ∑ ij : Fin 16 × Fin 16, eabs (p t ij.1 - p t ij.2)
      = ((∑ ij : Fin 16 × Fin 16, |f t ij.1 - f t ij.2| : ℝ) : EReal) := fun t => by
    rw [coe_sum]; exact sum_congr rfl fun ij _ => by rw [hf t ij.1 ij.1.isLt, hf t ij.2 ij.2.isLt, eabs_coe_sub]
  have hD : ∑ tm : Fin 7 × Fin 16, eabs (p tm.1.succ tm.2 - p tm.1.castSucc tm.2)
      = ((∑ tm : Fin 7 × Fin 16, |f tm.1.succ tm.2 - f tm.1.castSucc tm.2| : ℝ) : EReal) := by
    rw [coe_sum]; exact sum_congr rfl fun tm _ => by
      rw [hf tm.1.succ tm.2 tm.2.isLt, hf tm.1.castSucc tm.2 tm.2.isLt, eabs_coe_sub]
  have hP : ∀ t, pairAcc 0 (p t)
      = (((1 / 2) * ∑ i ∈ range 16, ∑ j ∈ range 16, |f t i - f t j| : ℝ) : EReal) :=
    fun t => by rw [← ofBits_zero]; exact pairAcc_coe (p t) (f t) (hf t)
  -- the ordered pairs over the product type are the double range sum
  have hpairs : ∀ t, ∑ ij : Fin 16 × Fin 16, |f t ij.1 - f t ij.2| = ∑ i ∈ range 16, ∑ j ∈ range 16, |f t i - f t j| :=
    fun t => by
      rw [Fintype.sum_prod_type, sum_range (fun i => ∑ j ∈ range 16, |f t i - f t j|)]
      exact sum_congr rfl fun i _ => (sum_range (fun j => |f t i - f t j|)).symm
  have hsteps : ∑ tm : Fin 7 × Fin 16, |f tm.1.succ tm.2 - f tm.1.castSucc tm.2|
      = ∑ t : Fin 7, ∑ m : Fin 16, |f t.succ m - f t.castSucc m| := Fintype.sum_prod_type _
  unfold kernelPix refPix
  simp only [ofBits_zero, hA, hB, hC, hD, hP, ofBits_16, ofBits_8, ofBits_7, ofBits_256, ofBits_112, ofBits_half,
    ofBits_inv256]
  -- every piece is now a real: push the coercion outwards
  have k1 : ∀ t, Ideal.div ((∑ m : Fin 16, |f t m - g t| : ℝ) : EReal) ((16 : ℝ) : EReal)
        - (((1 / 2) * ∑ i ∈ range 16, ∑ j ∈ range 16, |f t i - f t j| : ℝ) : EReal) * ((1 / 256 : ℝ) : EReal)
      = (((∑ m : Fin 16, |f t m - g t|) * (1 / 16)
          - ((1 / 2) * ∑ i ∈ range 16, ∑ j ∈ range 16, |f t i - f t j|) * (1 / 256) : ℝ) : EReal) := fun t => by
    rw [div_coe_coe _ (by norm_num : (16 : ℝ) ≠ 0), ← EReal.coe_mul, ← EReal.coe_sub]
  have r1 : ∀ t, Ideal.div ((0 : EReal) + ((∑ m : Fin 16, |f t m - g t| : ℝ) : EReal)) ((16 : ℝ) : EReal)
        - ((1 / 2 : ℝ) : EReal) * Ideal.div ((0 : EReal) + ((∑ ij : Fin 16 × Fin 16, |f t ij.1 - f t ij.2| : ℝ) : EReal))
            ((256 : ℝ) : EReal)
      = (((∑ m : Fin 16, |f t m - g t|) * (1 / 16)
          - ((1 / 2) * ∑ i ∈ range 16, ∑ j ∈ range 16, |f t i - f t j|) * (1 / 256) : ℝ) : EReal) := fun t => by
    rw [zero_add, zero_add, div_coe_coe _ (by norm_num : (16 : ℝ) ≠ 0), div_coe_coe _ (by norm_num : (256 : ℝ) ≠ 0),
      ← EReal.coe_mul, ← EReal.coe_sub, hpairs t]
    congr 1; ring
  simp only [k1, r1]
  have k2 : ∀ t : Fin 7, Ideal.div ((∑ m : Fin 16, |f t.succ m - f t.castSucc m| : ℝ) : EReal) ((16 : ℝ) : EReal)
      = (((∑ m : Fin 16, |f t.succ m - f t.castSucc m|) * (1 / 16) : ℝ) : EReal) :=
    fun t => div_coe_coe _ (by norm_num)
  simp only [k2, ← coe_sum, zero_add, div_coe_coe _ (by norm_num : (8 : ℝ) ≠ 0), div_coe_coe _ (by norm_num : (7 : ℝ) ≠ 0),
    div_coe_coe _ (by norm_num : (112 : ℝ) ≠ 0)]
  have e2 : (∑ t : Fin 7, (∑ m : Fin 16, |f t.succ m - f t.castSucc m|) * (1 / 16)) * (1 / 7)
      = (∑ tm : Fin 7 × Fin 16, |f tm.1.succ tm.2 - f tm.1.castSucc tm.2|) * (1 / 112) := by
    rw [hsteps, ← sum_mul]; ring
  rw [e2]

end Cert.Crps.PixelSpec

end
-- ==== Proof.KernelBody.lean ====
/-
  What the kernel's body stores at one element of its output block, as a function of the two input blocks.

  The body holds a block p[t, m, r, q] of sixteen members over eight steps and a block y[t, 0, r, q] of
  targets. At (r, q) it computes, for every step t, the mean over the members of |p - y| and the sum over the
  unordered pairs of members i < j of |p j - p i| — accumulated one smaller member i at a time, each step a
  slice of the later members minus a broadcast of member i, reduced along the member axis — scales the pair
  sum by 2⁻⁸, averages the difference over the steps, and adds 0.1 times the mean over the seven consecutive
  step pairs of the members' mean |p[t+1] - p[t]|. Each reduction is read as a finite sum, each slice and
  broadcast at an index, and the whole is `PixelSpec.kernelPix` of the column of the block at (r, q).
-/
import proofs.«132029_j53455162966139_2_alg».proof.Proof.Gen.KernelIdeal.Skeleton
import proofs.«132029_j53455162966139_2_alg».proof.Proof.PixelSpec
import Idealize.ShloMosaic.Lib.ValueIdx
import Idealize.ShloMosaic.Lib.ValueLayout
import Idealize.ShloMosaic.Lib.Pipeline.Value
import Idealize.ShloMosaic.PureOps.Ideal.Laws

noncomputable section

namespace Cert.Crps.KernelBody

open Idealize.ShloMosaic Idealize.ShloMosaic.ValueIdx Cert.KernelIdeal Cert.KernelIdeal.Gen Cert.Crps.PixelSpec

/-- Member `m` of the block at step `t`, row `r`, lane `q`; zero past the sixteenth member. -/
def col (v : FVec Ideal S8x16x32x256 .f32) (r : Fin 32) (q : Fin 256) (t : Fin 8) (m : ℕ) : EReal :=
  if h : m < 16 then v (ix4 t ⟨m, h⟩ r q) else 0

theorem read_eq_col (v : FVec Ideal S8x16x32x256 .f32) (r : Fin 32) (q : Fin 256) (t : Fin 8) (m : ℕ) (j : Fin 16)
    (hj : j.val = m) : v (ix4 t j r q) = col v r q t m := by
  subst hj; unfold col; rw [dif_pos j.isLt]

/-! ## The steps of the body as vectors -/

/-- One step of the pair accumulator: the `n` members from `o1` on, minus member `o` broadcast over them, in
    absolute value, summed along the member axis. -/
def tailVec (n o1 o : ℕ) (v : FVec Ideal S8x16x32x256 .f32)
    (hs : S8x16x32x256.Slices ![0, o1, 0, 0] ⟨4, ![8, n, 32, 256]⟩)
    (hs1 : S8x16x32x256.Slices ![0, o, 0, 0] S8x1x32x256)
    (hb : S8x1x32x256.Broadcasts ⟨4, ![8, n, 32, 256]⟩)
    (hr : (⟨4, ![8, n, 32, 256]⟩ : Shape).Reduces [1] S8x32x256) : FVec Ideal S8x32x256 .f32 :=
  multiReduction .add [1] S8x32x256
    (absf (subf (extractStridedSlice ⟨4, ![8, n, 32, 256]⟩ ![0, o1, 0, 0] v hs)
      (broadcastTo ⟨4, ![8, n, 32, 256]⟩ (extractStridedSlice S8x1x32x256 ![0, o, 0, 0] v hs1) hb)))
    0x00000000#32 hr (.inl rfl) rfl

/-- The last step: member 15 minus member 14, no broadcast needed. -/
def lastVec (v : FVec Ideal S8x16x32x256 .f32)
    (hsA : S8x16x32x256.Slices ![0, 15, 0, 0] S8x1x32x256) (hsB : S8x16x32x256.Slices ![0, 14, 0, 0] S8x1x32x256)
    (hr : S8x1x32x256.Reduces [1] S8x32x256) : FVec Ideal S8x32x256 .f32 :=
  multiReduction .add [1] S8x32x256
    (absf (subf (extractStridedSlice S8x1x32x256 ![0, 15, 0, 0] v hsA) (extractStridedSlice S8x1x32x256 ![0, 14, 0, 0] v hsB)))
    0x00000000#32 hr (.inl rfl) rfl

/-- The members' distances to the target, summed along the member axis. -/
def targetVec (v : FVec Ideal S8x16x32x256 .f32) (y : FVec Ideal S8x1x32x256 .f32)
    (hb : S8x1x32x256.Broadcasts S8x16x32x256) (hr : S8x16x32x256.Reduces [1] S8x32x256) : FVec Ideal S8x32x256 .f32 :=
  multiReduction .add [1] S8x32x256 (absf (subf v (broadcastTo S8x16x32x256 y hb))) 0x00000000#32 hr (.inl rfl) rfl

/-- The members' step-to-step differences, in absolute value, summed along the member axis. -/
def stepDiffVec (v : FVec Ideal S8x16x32x256 .f32)
    (hsA : S8x16x32x256.Slices ![1, 0, 0, 0] S7x16x32x256) (hsB : S8x16x32x256.Slices ![0, 0, 0, 0] S7x16x32x256)
    (hr : S7x16x32x256.Reduces [1] S7x32x256) : FVec Ideal S7x32x256 .f32 :=
  multiReduction .add [1] S7x32x256
    (absf (subf (extractStridedSlice S7x16x32x256 ![1, 0, 0, 0] v hsA) (extractStridedSlice S7x16x32x256 ![0, 0, 0, 0] v hsB)))
    0x00000000#32 hr (.inl rfl) rfl

/-- A sum along the step axis. -/
def stepSum (n : ℕ) (w : FVec Ideal ⟨3, ![n, 32, 256]⟩ .f32) (hr : (⟨3, ![n, 32, 256]⟩ : Shape).Reduces [0] S32x256) :
    FVec Ideal S32x256 .f32 :=
  multiReduction .add [0] S32x256 w 0x00000000#32 hr (.inl rfl) rfl

/-! ## Each step read at an index -/

theorem tailVec_apply (n o1 o : ℕ) (v : FVec Ideal S8x16x32x256 .f32)
    (hs : S8x16x32x256.Slices ![0, o1, 0, 0] ⟨4, ![8, n, 32, 256]⟩)
    (hs1 : S8x16x32x256.Slices ![0, o, 0, 0] S8x1x32x256)
    (hb : S8x1x32x256.Broadcasts ⟨4, ![8, n, 32, 256]⟩)
    (hr : (⟨4, ![8, n, 32, 256]⟩ : Shape).Reduces [1] S8x32x256) (t : Fin 8) (r : Fin 32) (q : Fin 256) :
    tailVec n o1 o v hs hs1 hb hr (ix3 t r q) = tails (col v r q t) o1 o n := by
  unfold tailVec
  refine (Ideal.multiReduction_add_single _ _ hr _ _ (ix3 t r q)).trans ?_
  unfold tails
  rw [Finset.sum_range]
  refine Finset.sum_congr rfl fun (k : Fin n) _ => ?_
  have hl : hr.lift (ix3 t r q) k = ix4 t k r q :=
    funext fun c => Fin.ext (by match c with | ⟨0, _⟩ => rfl | ⟨1, _⟩ => rfl | ⟨2, _⟩ => rfl | ⟨3, _⟩ => rfl)
  rw [hl]
  show eabs (extractStridedSlice ⟨4, ![8, n, 32, 256]⟩ ![0, o1, 0, 0] v hs (ix4 t k r q)
      - broadcastTo ⟨4, ![8, n, 32, 256]⟩ (extractStridedSlice S8x1x32x256 ![0, o, 0, 0] v hs1) hb (ix4 t k r q)) = _
  have eA := slice4_axis1_eq o1 v hs t k r q
  have eB : broadcastTo ⟨4, ![8, n, 32, 256]⟩ (extractStridedSlice S8x1x32x256 ![0, o, 0, 0] v hs1) hb (ix4 t k r q)
      = extractStridedSlice S8x1x32x256 ![0, o, 0, 0] v hs1 (ix4 t (0 : Fin 1) r q) :=
    broadcastTo_apply _ hb _ _ (fun a => by
      match a with
      | ⟨0, _⟩ => show t.val = if (8 : ℕ) = 1 then 0 else t.val; rw [if_neg (by decide)]
      | ⟨1, _⟩ => show 0 = if (1 : ℕ) = 1 then 0 else k.val; rw [if_pos rfl]
      | ⟨2, _⟩ => show r.val = if (32 : ℕ) = 1 then 0 else r.val; rw [if_neg (by decide)]
      | ⟨3, _⟩ => show q.val = if (256 : ℕ) = 1 then 0 else q.val; rw [if_neg (by decide)])
  have eC := slice4_axis1_eq o v hs1 t (0 : Fin 1) r q
  rw [eA, eB, eC, read_eq_col v r q t (o1 + k.val) _ rfl, read_eq_col v r q t o _ (Nat.add_zero o)]

theorem lastVec_apply (v : FVec Ideal S8x16x32x256 .f32)
    (hsA : S8x16x32x256.Slices ![0, 15, 0, 0] S8x1x32x256) (hsB : S8x16x32x256.Slices ![0, 14, 0, 0] S8x1x32x256)
    (hr : S8x1x32x256.Reduces [1] S8x32x256) (t : Fin 8) (r : Fin 32) (q : Fin 256) :
    lastVec v hsA hsB hr (ix3 t r q) = tails (col v r q t) 15 14 1 := by
  unfold lastVec
  refine (Ideal.multiReduction_add_single _ _ hr _ _ (ix3 t r q)).trans ?_
  unfold tails
  rw [Finset.sum_range]
  refine Finset.sum_congr rfl fun (k : Fin 1) _ => ?_
  have hl : hr.lift (ix3 t r q) k = ix4 t k r q :=
    funext fun c => Fin.ext (by match c with | ⟨0, _⟩ => rfl | ⟨1, _⟩ => rfl | ⟨2, _⟩ => rfl | ⟨3, _⟩ => rfl)
  rw [hl]
  show eabs (extractStridedSlice S8x1x32x256 ![0, 15, 0, 0] v hsA (ix4 t k r q)
      - extractStridedSlice S8x1x32x256 ![0, 14, 0, 0] v hsB (ix4 t k r q)) = _
  have hk : k.val = 0 := by omega
  rw [slice4_axis1_eq 15 v hsA t k r q, slice4_axis1_eq 14 v hsB t k r q,
    read_eq_col v r q t (15 + k.val) _ rfl, read_eq_col v r q t 14 _ (by show 14 + k.val = 14; omega)]

theorem targetVec_apply (v : FVec Ideal S8x16x32x256 .f32) (y : FVec Ideal S8x1x32x256 .f32)
    (hb : S8x1x32x256.Broadcasts S8x16x32x256) (hr : S8x16x32x256.Reduces [1] S8x32x256)
    (t : Fin 8) (r : Fin 32) (q : Fin 256) :
    targetVec v y hb hr (ix3 t r q) = ∑ m : Fin 16, eabs (col v r q t m - y (ix4 t (0 : Fin 1) r q)) := by
  unfold targetVec
  refine (Ideal.multiReduction_add_single _ _ hr _ _ (ix3 t r q)).trans ?_
  refine Finset.sum_congr rfl fun (k : Fin 16) _ => ?_
  have hl : hr.lift (ix3 t r q) k = ix4 t k r q :=
    funext fun c => Fin.ext (by match c with | ⟨0, _⟩ => rfl | ⟨1, _⟩ => rfl | ⟨2, _⟩ => rfl | ⟨3, _⟩ => rfl)
  rw [hl]
  show eabs (v (ix4 t k r q) - broadcastTo S8x16x32x256 y hb (ix4 t k r q)) = _
  have eB : broadcastTo S8x16x32x256 y hb (ix4 t k r q) = y (ix4 t (0 : Fin 1) r q) :=
    broadcastTo_apply _ hb _ _ (fun a => by
      match a with
      | ⟨0, _⟩ => show t.val = if (8 : ℕ) = 1 then 0 else t.val; rw [if_neg (by decide)]
      | ⟨1, _⟩ => show 0 = if (1 : ℕ) = 1 then 0 else k.val; rw [if_pos rfl]
      | ⟨2, _⟩ => show r.val = if (32 : ℕ) = 1 then 0 else r.val; rw [if_neg (by decide)]
      | ⟨3, _⟩ => show q.val = if (256 : ℕ) = 1 then 0 else q.val; rw [if_neg (by decide)])
  rw [eB, read_eq_col v r q t k.val k rfl]

theorem stepDiffVec_apply (v : FVec Ideal S8x16x32x256 .f32)
    (hsA : S8x16x32x256.Slices ![1, 0, 0, 0] S7x16x32x256) (hsB : S8x16x32x256.Slices ![0, 0, 0, 0] S7x16x32x256)
    (hr : S7x16x32x256.Reduces [1] S7x32x256) (t : Fin 7) (r : Fin 32) (q : Fin 256) :
    stepDiffVec v hsA hsB hr (ix3 t r q) = ∑ m : Fin 16, eabs (col v r q t.succ m - col v r q t.castSucc m) := by
  unfold stepDiffVec
  refine (Ideal.multiReduction_add_single _ _ hr _ _ (ix3 t r q)).trans ?_
  refine Finset.sum_congr rfl fun (k : Fin 16) _ => ?_
  have hl : hr.lift (ix3 t r q) k = ix4 t k r q :=
    funext fun c => Fin.ext (by match c with | ⟨0, _⟩ => rfl | ⟨1, _⟩ => rfl | ⟨2, _⟩ => rfl | ⟨3, _⟩ => rfl)
  rw [hl]
  show eabs (extractStridedSlice S7x16x32x256 ![1, 0, 0, 0] v hsA (ix4 t k r q)
      - extractStridedSlice S7x16x32x256 ![0, 0, 0, 0] v hsB (ix4 t k r q)) = _
  have eA : extractStridedSlice S7x16x32x256 ![1, 0, 0, 0] v hsA (ix4 t k r q) = v (ix4 t.succ k r q) :=
    extractStridedSlice_apply _ v hsA _ _ (fun a => by
      match a with
      | ⟨0, _⟩ => show t.val + 1 = 1 + t.val; omega
      | ⟨1, _⟩ => show k.val = 0 + k.val; omega
      | ⟨2, _⟩ => show r.val = 0 + r.val; omega
      | ⟨3, _⟩ => show q.val = 0 + q.val; omega)
  have eB : extractStridedSlice S7x16x32x256 ![0, 0, 0, 0] v hsB (ix4 t k r q) = v (ix4 t.castSucc k r q) :=
    extractStridedSlice_apply _ v hsB _ _ (fun a => by
      match a with
      | ⟨0, _⟩ => show t.val = 0 + t.val; omega
      | ⟨1, _⟩ => show k.val = 0 + k.val; omega
      | ⟨2, _⟩ => show r.val = 0 + r.val; omega
      | ⟨3, _⟩ => show q.val = 0 + q.val; omega)
  rw [eA, eB, read_eq_col v r q t.succ k.val k rfl, read_eq_col v r q t.castSucc k.val k rfl]

theorem stepSum_apply (n : ℕ) (w : FVec Ideal ⟨3, ![n, 32, 256]⟩ .f32)
    (hr : (⟨3, ![n, 32, 256]⟩ : Shape).Reduces [0] S32x256) (r : Fin 32) (q : Fin 256) :
    stepSum n w hr (ix2 r q) = ∑ t : Fin n, w (ix3 t r q) := by
  unfold stepSum
  refine (Ideal.multiReduction_add_single _ _ hr _ _ (ix2 r q)).trans ?_
  refine Finset.sum_congr rfl fun (k : Fin n) _ => ?_
  exact congrArg w (funext fun c => Fin.ext (by match c with | ⟨0, _⟩ => rfl | ⟨1, _⟩ => rfl | ⟨2, _⟩ => rfl))

/-! ## The generated payloads are these steps

Each equation holds by unfolding both sides: the payload is the same chain of operations, with the side
conditions' proofs irrelevant. -/

/-- The block with its leading unit axis dropped. -/
abbrev blk (x0 : FVec Ideal S1x8x16x32x256 .f32) : FVec Ideal S8x16x32x256 .f32 := k0_pay1 (F := Ideal) x0

theorem pay2_eq (x0 : FVec Ideal S1x8x16x32x256 .f32) (x1 : FVec Ideal S1x8x1x32x256 .f32) :
    k0_pay2 (F := Ideal) x0 x1 = divf (targetVec (blk x0) (shapeCast S8x1x32x256 x1 (by decide)) (by decide) (by decide))
      (broadcast S8x32x256 (Scalar.ofBits .f32 0x41800000#32)) := rfl

theorem pay3_eq (x0 : FVec Ideal S1x8x16x32x256 .f32) :
    k0_pay3 (F := Ideal) x0 = addf (addf (addf (addf (broadcast S8x32x256 (Scalar.ofBits .f32 0x00000000#32))
        (tailVec 15 1 0 (blk x0) (by decide) (by decide) (by decide) (by decide)))
        (tailVec 14 2 1 (blk x0) (by decide) (by decide) (by decide) (by decide)))
        (tailVec 13 3 2 (blk x0) (by decide) (by decide) (by decide) (by decide)))
        (tailVec 12 4 3 (blk x0) (by decide) (by decide) (by decide) (by decide)) := rfl

theorem pay6_eq (x0 : FVec Ideal S1x8x16x32x256 .f32) (v38 : FVec Ideal S8x32x256 .f32) :
    k0_pay6 (F := Ideal) (blk x0) v38 (k0_pay4 (F := Ideal) x0) (k0_pay5 (F := Ideal) x0)
      = addf (addf (addf (addf (addf (addf (addf v38
        (tailVec 11 5 4 (blk x0) (by decide) (by decide) (by decide) (by decide)))
        (tailVec 10 6 5 (blk x0) (by decide) (by decide) (by decide) (by decide)))
        (tailVec 9 7 6 (blk x0) (by decide) (by decide) (by decide) (by decide)))
        (tailVec 8 8 7 (blk x0) (by decide) (by decide) (by decide) (by decide)))
        (tailVec 7 9 8 (blk x0) (by decide) (by decide) (by decide) (by decide)))
        (tailVec 6 10 9 (blk x0) (by decide) (by decide) (by decide) (by decide)))
        (tailVec 5 11 10 (blk x0) (by decide) (by decide) (by decide) (by decide)) := rfl

theorem pay8_eq (x0 : FVec Ideal S1x8x16x32x256 .f32) (v9 v87 : FVec Ideal S8x32x256 .f32) :
    k0_pay8 (F := Ideal) (blk x0) v9 v87 (k0_pay7 (F := Ideal) (blk x0))
      = shapeCast S1x32x256 (addf
        (divf (stepSum 8 (subf v9 (mulf (addf (addf (addf (addf v87
            (tailVec 4 12 11 (blk x0) (by decide) (by decide) (by decide) (by decide)))
            (tailVec 3 13 12 (blk x0) (by decide) (by decide) (by decide) (by decide)))
            (tailVec 2 14 13 (blk x0) (by decide) (by decide) (by decide) (by decide)))
            (lastVec (blk x0) (by decide) (by decide) (by decide)))
          (broadcast S8x32x256 (Scalar.ofBits .f32 0x3B800000#32)))) (by decide))
          (broadcast S32x256 (Scalar.ofBits .f32 0x41000000#32)))
        (mulf (broadcast S32x256 (Scalar.ofBits .f32 0x3DCCCCCD#32))
          (divf (stepSum 7 (divf (stepDiffVec (blk x0) (by decide) (by decide) (by decide))
              (broadcast S7x32x256 (Scalar.ofBits .f32 0x41800000#32))) (by decide))
            (broadcast S32x256 (Scalar.ofBits .f32 0x40E00000#32))))) (by decide) := rfl

/-! ## The stored element -/

/-- The target block with its leading unit axis dropped, at (t, 0, r, q), is the loaded block's entry (0, t, 0, r, q). -/
theorem target_apply (x1 : FVec Ideal S1x8x1x32x256 .f32) (h : S1x8x1x32x256.ShapeCasts S8x1x32x256)
    (t : Fin 8) (r : Fin 32) (q : Fin 256) :
    shapeCast S8x1x32x256 x1 h (ix4 t (0 : Fin 1) r q) = x1 (ix5 (0 : Fin 1) t (0 : Fin 1) r q) := by
  refine (shapeCast_dropUnit_apply ![8, 1, 32, 256] x1 h (ix4 t (0 : Fin 1) r q)).trans ?_
  exact congrArg x1 (funext fun a => by
    match a with | ⟨0, _⟩ => rfl | ⟨1, _⟩ => rfl | ⟨2, _⟩ => rfl | ⟨3, _⟩ => rfl | ⟨4, _⟩ => rfl)

/-- The predictions block with its leading unit axis dropped, at (t, m, r, q), is the loaded block's entry (0, t, m, r, q). -/
theorem blk_apply (x0 : FVec Ideal S1x8x16x32x256 .f32) (t : Fin 8) (m : Fin 16) (r : Fin 32) (q : Fin 256) :
    blk x0 (ix4 t m r q) = x0 (ix5 (0 : Fin 1) t m r q) := by
  show shapeCast S8x16x32x256 x0 _ (ix4 t m r q) = _
  refine (shapeCast_dropUnit_apply ![8, 16, 32, 256] x0 _ (ix4 t m r q)).trans ?_
  exact congrArg x0 (funext fun a => by
    match a with | ⟨0, _⟩ => rfl | ⟨1, _⟩ => rfl | ⟨2, _⟩ => rfl | ⟨3, _⟩ => rfl | ⟨4, _⟩ => rfl)

/-- What the body stores at row `r`, lane `q` of its output block: the pixel's value in the kernel's arrangement, of
    the column of the predictions block and the targets there. -/
theorem stored_apply (x0 : FVec Ideal S1x8x16x32x256 .f32) (x1 : FVec Ideal S1x8x1x32x256 .f32) (r : Fin 32) (q : Fin 256) :
    k0_pay8 (F := Ideal) (k0_pay1 (F := Ideal) x0) (k0_pay2 (F := Ideal) x0 x1) (k0_pay6 (F := Ideal) (k0_pay1 (F := Ideal) x0) (k0_pay3 (F := Ideal) x0) (k0_pay4 (F := Ideal) x0) (k0_pay5 (F := Ideal) x0)) (k0_pay7 (F := Ideal) (k0_pay1 (F := Ideal) x0))
        (ix3 (0 : Fin 1) r q)
      = kernelPix (col (blk x0) r q) (fun t => x1 (ix5 (0 : Fin 1) t (0 : Fin 1) r q)) := by
  rw [show k0_pay1 (F := Ideal) x0 = blk x0 from rfl, pay8_eq, pay6_eq, pay3_eq, pay2_eq, shapeCast_ab_1ab_apply]
  simp only [addf_apply, subf_apply, mulf_apply, divf_apply, broadcast_apply, stepSum_apply, tailVec_apply, lastVec_apply,
    targetVec_apply, stepDiffVec_apply, target_apply, Scalar.ofBits, Ideal.ofBits_def]
  rfl

end Cert.Crps.KernelBody

end
-- ==== Proof.KernelArray.lean ====
/-
  From the output blocks to the result.

  The grid has 2 × 4 points; point (b, k) reads the predictions' block [b, :, :, 32k : 32k+32, :] and the targets'
  block [b, :, 0, 32k : 32k+32, :] and writes the loss block [b, 32k : 32k+32, :]. Every block is a restriction of
  one whole-array function: the element the body stores at row r, lane q of point (b, k) is the kernel-form loss of
  pixel (b, 32k + r, q) of the two argument arrays. The 8 output blocks tile the 2 × 128 × 256 loss array, so after
  the run the array is that function everywhere; the host lines after the region sum it over all pixels from the
  zero word and divide by the word of 65536.
-/
import proofs.«132029_j53455162966139_2_alg».proof.Proof.Gen.KernelIdeal.Frame
import proofs.«132029_j53455162966139_2_alg».proof.Proof.KernelBody
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Crps.KernelArray

open Cert.KernelIdeal Cert.KernelIdeal.Gen Cert.Crps.PixelSpec Cert.Crps.KernelBody

variable (m : (ℓ : Loc nD τ sig) → Buf (Elt Ideal) ℓ) (ρ : Dev nD → PrngReg)

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- The printed index maps over the grid: both input windows move with the output window on the batch axis and on
    the row-tile axis, and sit at block 0 on every other axis; the output's block indices stay in their ranges. -/
theorem idx_facts : ∀ t : Fin cfg0.N,
    win0_0.index t (0 : Fin 5) = win0_2.index t (0 : Fin 3) ∧ win0_0.index t (1 : Fin 5) = 0
    ∧ win0_0.index t (2 : Fin 5) = 0 ∧ win0_0.index t (3 : Fin 5) = win0_2.index t (1 : Fin 3)
    ∧ win0_0.index t (4 : Fin 5) = 0
    ∧ win0_1.index t (0 : Fin 5) = win0_2.index t (0 : Fin 3) ∧ win0_1.index t (1 : Fin 5) = 0
    ∧ win0_1.index t (2 : Fin 5) = 0 ∧ win0_1.index t (3 : Fin 5) = win0_2.index t (1 : Fin 3)
    ∧ win0_1.index t (4 : Fin 5) = 0
    ∧ win0_2.index t (0 : Fin 3) ≤ 1 ∧ win0_2.index t (1 : Fin 3) ≤ 3 ∧ win0_2.index t (2 : Fin 3) = 0 :=
  (by decide +kernel : ∀ t : Fin grid0.N, _)

/-- Every block of the loss array is some point's. -/
theorem idx_onto : ∀ (q0 : Fin 2) (q1 : Fin 4), ∃ t : Fin cfg0.N, win0_2.index t = ![q0.val, q1.val, 0] :=
  (by decide +kernel : ∀ (q0 : Fin 2) (q1 : Fin 4), ∃ t : Fin grid0.N, win0_2.index t = ![q0.val, q1.val, 0])

/-- An entry of the predictions' block at point `t` is the array's entry at the block's place. -/
theorem iblk0_apply (c : Dev nD) (t : Fin cfg0.N) (s : Fin 8) (k : Fin 16) (r : Fin 32) (q : Fin 256) (b : Fin 2) (h : Fin 128)
    (hb : b.val = win0_2.index t (0 : Fin 3)) (hh : h.val = win0_2.index t (1 : Fin 3) * 32 + r.val) :
    (iblk m c 0 t : FVec Ideal S1x8x16x32x256 .f32) (ix5 (0 : Fin 1) s k r q)
      = (V m c main_arg0 : S2x8x16x128x256.Idx → EReal) (ix5 b s k h q) := by
  obtain ⟨e0, e1, e2, e3, e4, -⟩ := idx_facts t
  unfold iblk
  rw [View.read_apply]
  show V m c main_arg0 _ = V m c main_arg0 _
  congr 1
  funext a
  apply Fin.ext
  match a with
  | ⟨0, _⟩ => show win0_0.index t (0 : Fin 5) * 1 + 1 * 0 = b.val; omega
  | ⟨1, _⟩ => show win0_0.index t (1 : Fin 5) * 8 + 1 * s.val = s.val; omega
  | ⟨2, _⟩ => show win0_0.index t (2 : Fin 5) * 16 + 1 * k.val = k.val; omega
  | ⟨3, _⟩ => show win0_0.index t (3 : Fin 5) * 32 + 1 * r.val = h.val; omega
  | ⟨4, _⟩ => show win0_0.index t (4 : Fin 5) * 256 + 1 * q.val = q.val; omega

/-- An entry of the targets' block at point `t` is the array's entry at the block's place. -/
theorem iblk1_apply (c : Dev nD) (t : Fin cfg0.N) (s : Fin 8) (r : Fin 32) (q : Fin 256) (b : Fin 2) (h : Fin 128)
    (hb : b.val = win0_2.index t (0 : Fin 3)) (hh : h.val = win0_2.index t (1 : Fin 3) * 32 + r.val) :
    (iblk m c 1 t : FVec Ideal S1x8x1x32x256 .f32) (ix5 (0 : Fin 1) s (0 : Fin 1) r q)
      = (V m c main_arg1 : S2x8x1x128x256.Idx → EReal) (ix5 b s (0 : Fin 1) h q) := by
  obtain ⟨-, -, -, -, -, e0, e1, e2, e3, e4, -⟩ := idx_facts t
  unfold iblk
  rw [View.read_apply]
  show V m c main_arg1 _ = V m c main_arg1 _
  congr 1
  funext a
  apply Fin.ext
  match a with
  | ⟨0, _⟩ => show win0_1.index t (0 : Fin 5) * 1 + 1 * 0 = b.val; omega
  | ⟨1, _⟩ => show win0_1.index t (1 : Fin 5) * 8 + 1 * s.val = s.val; omega
  | ⟨2, _⟩ => show win0_1.index t (2 : Fin 5) * 1 + 1 * 0 = 0; omega
  | ⟨3, _⟩ => show win0_1.index t (3 : Fin 5) * 32 + 1 * r.val = h.val; omega
  | ⟨4, _⟩ => show win0_1.index t (4 : Fin 5) * 256 + 1 * q.val = q.val; omega

/-- What point `t` writes back is block `t` of the kernel-form loss of the argument arrays. -/
theorem flushed_eq (c : Dev nD) (t : Fin cfg0.N) :
    (dats m 0 c).flushed 2 t
      = ((cfg0.win 2).blk t).view.read (Elt Ideal)
          (kernelLoss (V m c main_arg0 : S2x8x16x128x256.Idx → EReal) (V m c main_arg1 : S2x8x1x128x256.Idx → EReal)) := by
  show (cfg0.win 2).cut (grid0.coords t) ((dats m 0 c).after 2 t) = _
  rw [after0_2]
  unfold out0_2
  rw [View.canon_unit_zero hz3]
  simp only [View.ld_unit_zero (S := S1x8x16x32x256) hz5, View.ld_unit_zero (S := S1x8x1x32x256) hz5]
  obtain ⟨-, -, -, -, -, -, -, -, -, -, b0, b1, b2⟩ := idx_facts t
  funext j
  obtain ⟨u, r, q, rfl⟩ : ∃ (u : Fin 1) (r : Fin 32) (q : Fin 256), j = ix3 u r q := ⟨j 0, j 1, j 2, eq_ix3 j⟩
  obtain rfl : u = 0 := Subsingleton.elim _ _
  rw [View.read_apply]
  have hemb : ((cfg0.win 2).blk t).view.emb (ix3 (0 : Fin 1) r q)
      = (ix3 (⟨win0_2.index t (0 : Fin 3), by omega⟩ : Fin 2) (⟨win0_2.index t (1 : Fin 3) * 32 + r.val, by omega⟩ : Fin 128) q
          : S2x128x256.Idx) := by
    funext a
    apply Fin.ext
    match a with
    | ⟨0, _⟩ => show win0_2.index t (0 : Fin 3) * 1 + 1 * 0 = win0_2.index t (0 : Fin 3); omega
    | ⟨1, _⟩ => show win0_2.index t (1 : Fin 3) * 32 + 1 * r.val = win0_2.index t (1 : Fin 3) * 32 + r.val; omega
    | ⟨2, _⟩ => show win0_2.index t (2 : Fin 3) * 256 + 1 * q.val = q.val; omega
  rw [hemb]
  refine (stored_apply (iblk m c 0 t) (iblk m c 1 t) r q).trans ?_
  show kernelPix _ _ = kernelPix (memberAt _ _ _ _) (targetAt _ _ _ _)
  congr 1
  · funext s k
    unfold col memberAt
    by_cases hk : k < 16
    · rw [dif_pos hk, dif_pos hk, blk_apply]
      exact iblk0_apply m c t s ⟨k, hk⟩ r q _ _ rfl rfl
    · rw [dif_neg hk, dif_neg hk]
  · funext s
    exact iblk1_apply m c t s r q _ _ rfl rfl

/-- An index of the loss array is in point `t`'s block iff each coordinate is in the block's range on its axis. -/
theorem mem_blk (t : Fin cfg0.N) (i : S2x128x256.Idx) :
    i ∈ ((cfg0.win 2).blk t).view.set ↔ ∀ a : Fin 3, win0_2.index t a * S1x32x256.size a ≤ (i a).val
      ∧ (i a).val < win0_2.index t a * S1x32x256.size a + S1x32x256.size a := by
  show i ∈ ((View.whole main_v0).slice (win0_2.rect t)).set ↔ _
  rw [View.set_slice_whole, Rect.mem_set_unit]
  exact Iff.rfl

/-- The blocks tile the loss array: pixel (b, h, w) is in the block of the point (b, h / 32). -/
theorem cover (i : S2x128x256.Idx) :
    ∃ t : Fin cfg0.N, (cfg0.win 2).flush t = true ∧ i ∈ ((cfg0.win 2).blk t).view.set := by
  have hi0 : (i 0).val < 2 := (i 0).isLt
  have hi1 : (i 1).val < 128 := (i 1).isLt
  have hi2 : (i 2).val < 256 := (i 2).isLt
  obtain ⟨t, ht⟩ := idx_onto ⟨(i 0).val, hi0⟩ ⟨(i 1).val / 32, by omega⟩
  have q0 : win0_2.index t (0 : Fin 3) = (i 0).val := congrFun ht 0
  have q1 : win0_2.index t (1 : Fin 3) = (i 1).val / 32 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 32 ≤ (i 1).val ∧ (i 1).val < win0_2.index t (1 : Fin 3) * 32 + 32; omega
  | ⟨2, _⟩ => show win0_2.index t (2 : Fin 3) * 256 ≤ (i 2).val ∧ (i 2).val < win0_2.index t (2 : Fin 3) * 256 + 256; omega

/-- The loss array after the run: the kernel-form loss of the argument arrays, at every pixel. -/
theorem final (c : Dev nD) :
    (dats m 0 c).arrAt 2 cfg0.N
      = kernelLoss (V m c main_arg0 : S2x8x16x128x256.Idx → EReal) (V m c main_arg1 : S2x8x1x128x256.Idx → EReal) :=
  (dats m 0 c).arrAt_eq_of_cover 2 _ (fun t _ => flushed_eq m c t) cover

/-! ## The host lines after the region -/

/-- The sum of a loss array over all pixels from the zero word, divided by the word of 65536: the program's last
    four host lines. -/
def meanOf (L : S2x128x256.Idx → EReal) : S_.Idx → EReal :=
  Host.divf (F := Ideal)
    (Host.reduceAdd (F := Ideal) (φ := .f32) L (constant (F := Ideal) S_ .f32 0x00000000#32) reducesTo_S2x128x256_S_d0_1_2 h_S_)
    (constant (F := Ideal) S_ .f32 0x47800000#32)

/-- At its one index it is that quotient of the total sum. -/
theorem meanOf_eq (L : S2x128x256.Idx → EReal) :
    meanOf L = fun _ => Ideal.div (Ideal.ofBits .f32 0x00000000#32 + ∑ i : S2x128x256.Idx, L i)
      (Ideal.ofBits .f32 0x47800000#32) := by
  funext j
  unfold meanOf
  simp only [Host.divf, Host.reduceAdd, Ideal.hostReduceAdd_def, Ideal.hostDivf_def]
  rw [Ideal.hostReduceAdd_total reducesTo_S2x128x256_S_d0_1_2 (fun b => b.elim0)]
  rfl

/-- The program's result after the tail: the mean of the loss array the region left. -/
theorem tail_eq (c : Dev nD) :
    Pipeline.afterTail₀ cfgs (dats m) 0 (V0 m) [hostOps1] c main_v2
      = meanOf (kernelLoss (V m c main_arg0 : S2x8x16x128x256.Idx → EReal) (V m c main_arg1 : S2x8x1x128x256.Idx → EReal)) := by
  unfold Pipeline.afterTail₀
  show StableHlo.after hostOps1 _ (Proc.devRef .tc main_v2) = _
  after_results
  rw [Pipeline.withArrays_arr spec0 launch0.win.arr_inj c _ _ 2, final m c]
  rfl

/-- The result buffer is no array of the pipeline and is not scoped. -/
theorem main_v2_rest : main_v2 ∈ Pipeline.restRefs sig spec0 :=
  Pipeline.mem_restRefs_of main_v2 rfl (fun w => by fin_cases w <;> decide)

/-- The run, read: the result at the mean of the kernel-form loss of the arguments, the arguments unchanged. -/
theorem run : θ_run defs (onTc (τ := τ) (main (F := Ideal))) ⟨m, fun _ => 0, ρ⟩ fun r => ∀ c : Dev nD,
      r.2.mem ((c.tc : Thread nD τ).loc main_v2)
        = meanOf (kernelLoss (m ((c.tc : Thread nD τ).loc main_arg0) : S2x8x16x128x256.Idx → EReal)
            (m ((c.tc : Thread nD τ).loc main_arg1) : S2x8x1x128x256.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 main_v2_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Crps.KernelArray

end
-- ==== Proof.RefRead.lean ====
/-
  The reference program read at an index, at the ideal instance (a float is an extended real).

  At a pixel (b, h, w) the per-pixel array is, with p t m the members and y t the targets there,
    ( 0 + ∑ t, ( (0 + ∑ m, |p t m - y t|) / 16 - ½ · (0 + ∑ (i, j), |p t i - p t j|) / 256 ) ) / 8
      + 0.1 · (0 + ∑ (t, m), |p (t+1) m - p t m|) / 112,
  each constant the float word the program carries. The two sums over two axes at once are read by showing that the
  source indices dropping to a result index are exactly that index with a pair of coordinates inserted, so the
  filtered sum is a sum over the pairs. The final result sums the per-pixel array over all pixels (the indices
  (b, 0, 0, h, w) correspond one to one to the pixels (b, h, w)) and divides by the word of 65536.
-/
import proofs.«132029_j53455162966139_2_alg».proof.Proof.Gen.ReferenceIdeal.Read
import proofs.«132029_j53455162966139_2_alg».proof.Proof.PixelSpec
import Idealize.ShloMosaic.Lib.ValueIdx
import Idealize.ShloMosaic.Lib.ValueLayout
import Idealize.ShloMosaic.PureOps.Ideal.Laws

noncomputable section

namespace Cert.Crps.RefRead

open Idealize.ShloMosaic Idealize.ShloMosaic.ValueIdx Cert.ReferenceIdeal Cert.ReferenceIdeal.Read Cert.Crps.PixelSpec

/-- A sum over axes 2 and 3 of a rank-6 array, at the result index (b, t, h, w): the source indices that drop to it are
    exactly (b, t, i, j, h, w), so the sum runs over the pairs (i, j). -/
theorem sum_pairs (hr : S2x8x16x16x128x256.ReducesTo [2, 3] S2x8x128x256) (x : S2x8x16x16x128x256.Idx → EReal)
    (init : EReal) (b : Fin 2) (t : Fin 8) (h : Fin 128) (w : Fin 256) :
    Ideal.hostReduceAdd hr x init (ix4 b t h w) = init + ∑ ij : Fin 16 × Fin 16, x (ix6 b t ij.1 ij.2 h w) := by
  unfold Ideal.hostReduceAdd
  refine congrArg (init + ·) ?_
  have hdrop : ∀ i : S2x8x16x16x128x256.Idx, hr.drop i = ix4 b t h w → ix6 b t (i 2) (i 3) h w = i := by
    intro i hi
    have e0 : (i 0).val = b.val :=
      (hr.drop_apply_val_of_eq i 0 0).symm.trans (congrArg (fun j : S2x8x128x256.Idx => (j 0).val) hi)
    have e1 : (i 1).val = t.val :=
      (hr.drop_apply_val_of_eq i 1 1).symm.trans (congrArg (fun j : S2x8x128x256.Idx => (j 1).val) hi)
    have e4 : (i 4).val = h.val :=
      (hr.drop_apply_val_of_eq i 2 4).symm.trans (congrArg (fun j : S2x8x128x256.Idx => (j 2).val) hi)
    have e5 : (i 5).val = w.val :=
      (hr.drop_apply_val_of_eq i 3 5).symm.trans (congrArg (fun j : S2x8x128x256.Idx => (j 3).val) hi)
    funext c
    apply Fin.ext
    match c with
    | ⟨0, _⟩ => exact e0.symm
    | ⟨1, _⟩ => exact e1.symm
    | ⟨2, _⟩ => rfl
    | ⟨3, _⟩ => rfl
    | ⟨4, _⟩ => exact e4.symm
    | ⟨5, _⟩ => exact e5.symm
  refine Finset.sum_nbij' (fun i => (i 2, i 3)) (fun ij => ix6 b t ij.1 ij.2 h w) ?_ ?_ ?_ ?_ ?_
  · intro i _; exact Finset.mem_univ _
  · intro ij _
    refine Finset.mem_filter.2 ⟨Finset.mem_univ _, ?_⟩
    funext c
    apply Fin.ext
    match c with
    | ⟨0, _⟩ => exact hr.drop_apply_val_of_eq _ 0 0
    | ⟨1, _⟩ => exact hr.drop_apply_val_of_eq _ 1 1
    | ⟨2, _⟩ => exact hr.drop_apply_val_of_eq _ 2 4
    | ⟨3, _⟩ => exact hr.drop_apply_val_of_eq _ 3 5
  · intro i hi; exact hdrop i (Finset.mem_filter.1 hi).2
  · intro ij _; rfl
  · intro i hi; exact congrArg x (hdrop i (Finset.mem_filter.1 hi).2).symm

/-- A sum over axes 1 and 2 of a rank-5 array, at the result index (b, h, w): the source indices that drop to it are
    exactly (b, t, m, h, w), so the sum runs over the pairs (t, m). -/
theorem sum_steps (hr : S2x7x16x128x256.ReducesTo [1, 2] S2x128x256) (x : S2x7x16x128x256.Idx → EReal)
    (init : EReal) (b : Fin 2) (h : Fin 128) (w : Fin 256) :
    Ideal.hostReduceAdd hr x init (ix3 b h w) = init + ∑ tm : Fin 7 × Fin 16, x (ix5 b tm.1 tm.2 h w) := by
  unfold Ideal.hostReduceAdd
  refine congrArg (init + ·) ?_
  have hdrop : ∀ i : S2x7x16x128x256.Idx, hr.drop i = ix3 b h w → ix5 b (i 1) (i 2) h w = i := by
    intro i hi
    have e0 : (i 0).val = b.val :=
      (hr.drop_apply_val_of_eq i 0 0).symm.trans (congrArg (fun j : S2x128x256.Idx => (j 0).val) hi)
    have e3 : (i 3).val = h.val :=
      (hr.drop_apply_val_of_eq i 1 3).symm.trans (congrArg (fun j : S2x128x256.Idx => (j 1).val) hi)
    have e4 : (i 4).val = w.val :=
      (hr.drop_apply_val_of_eq i 2 4).symm.trans (congrArg (fun j : S2x128x256.Idx => (j 2).val) hi)
    funext c
    apply Fin.ext
    match c with
    | ⟨0, _⟩ => exact e0.symm
    | ⟨1, _⟩ => rfl
    | ⟨2, _⟩ => rfl
    | ⟨3, _⟩ => exact e3.symm
    | ⟨4, _⟩ => exact e4.symm
  refine Finset.sum_nbij' (fun i => (i 1, i 2)) (fun tm => ix5 b tm.1 tm.2 h w) ?_ ?_ ?_ ?_ ?_
  · intro i _; exact Finset.mem_univ _
  · intro tm _
    refine Finset.mem_filter.2 ⟨Finset.mem_univ _, ?_⟩
    funext c
    apply Fin.ext
    match c with
    | ⟨0, _⟩ => exact hr.drop_apply_val_of_eq _ 0 0
    | ⟨1, _⟩ => exact hr.drop_apply_val_of_eq _ 1 3
    | ⟨2, _⟩ => exact hr.drop_apply_val_of_eq _ 2 4
  · intro i hi; exact hdrop i (Finset.mem_filter.1 hi).2
  · intro tm _; rfl
  · intro i hi; exact congrArg x (hdrop i (Finset.mem_filter.1 hi).2).symm

/-- The reference's |prediction - target| at (b, t, m, h, w). -/
theorem v2_at (P : (⟨S2x8x16x128x256, .f32⟩ : BufTy).Contents (Elt Ideal)) (Y : (⟨S2x8x1x128x256, .f32⟩ : BufTy).Contents (Elt Ideal))
    (b : Fin 2) (t : Fin 8) (m : Fin 16) (h : Fin 128) (w : Fin 256) :
    val_main_v2 (F := Ideal) P Y (ix5 b t m h w) = eabs (memberAt P b h w t m - targetAt Y b h w t) := by
  have e : idx_main_v0 (ix5 b t m h w) = ix5 b t (0 : Fin 1) h w :=
    funext fun a => Fin.ext (by match a with | ⟨0, _⟩ => rfl | ⟨1, _⟩ => rfl | ⟨2, _⟩ => rfl | ⟨3, _⟩ => rfl | ⟨4, _⟩ => rfl)
  rw [memberAt_of_lt, val_main_v2_apply, val_main_v1_apply, val_main_v0_apply, e]
  rfl

/-- The sum over the members of |prediction - target| at (b, t, h, w), from the zero word. -/
theorem v3_at (P : (⟨S2x8x16x128x256, .f32⟩ : BufTy).Contents (Elt Ideal)) (Y : (⟨S2x8x1x128x256, .f32⟩ : BufTy).Contents (Elt Ideal))
    (b : Fin 2) (t : Fin 8) (h : Fin 128) (w : Fin 256) :
    val_main_v3 (F := Ideal) P Y (ix4 b t h w)
      = Ideal.ofBits .f32 0x00000000#32 + ∑ m : Fin 16, eabs (memberAt P b h w t m - targetAt Y b h w t) := by
  rw [val_main_v3_apply]
  refine congrArg₂ (· + ·) rfl (Finset.sum_congr rfl fun m _ => ?_)
  have e : idx_main_v3 (ix4 b t h w) m = ix5 b t m h w :=
    funext fun a => Fin.ext (by match a with | ⟨0, _⟩ => rfl | ⟨1, _⟩ => rfl | ⟨2, _⟩ => rfl | ⟨3, _⟩ => rfl | ⟨4, _⟩ => rfl)
  rw [e]; exact v2_at P Y b t m h w

/-- The reference's |member i - member j| at (b, t, i, j, h, w). -/
theorem v11_at (P : (⟨S2x8x16x128x256, .f32⟩ : BufTy).Contents (Elt Ideal))
    (b : Fin 2) (t : Fin 8) (i j : Fin 16) (h : Fin 128) (w : Fin 256) :
    val_main_v11 (F := Ideal) P (ix6 b t i j h w) = eabs (memberAt P b h w t i - memberAt P b h w t j) := by
  have e8 : idx_main_v6 (idx_main_v8 (ix6 b t i j h w)) = ix5 b t i h w :=
    funext fun a => Fin.ext (by match a with | ⟨0, _⟩ => rfl | ⟨1, _⟩ => rfl | ⟨2, _⟩ => rfl | ⟨3, _⟩ => rfl | ⟨4, _⟩ => rfl)
  have e9 : idx_main_v7 (idx_main_v9 (ix6 b t i j h w)) = ix5 b t j h w :=
    funext fun a => Fin.ext (by match a with | ⟨0, _⟩ => rfl | ⟨1, _⟩ => rfl | ⟨2, _⟩ => rfl | ⟨3, _⟩ => rfl | ⟨4, _⟩ => rfl)
  rw [memberAt_of_lt, memberAt_of_lt, val_main_v11_apply, val_main_v10_apply, val_main_v8_apply, val_main_v6_apply,
    val_main_v9_apply, val_main_v7_apply, e8, e9]
  rfl

/-- The sum over the ordered pairs of members at (b, t, h, w), from the zero word. -/
theorem v12_at (P : (⟨S2x8x16x128x256, .f32⟩ : BufTy).Contents (Elt Ideal))
    (b : Fin 2) (t : Fin 8) (h : Fin 128) (w : Fin 256) :
    val_main_v12 (F := Ideal) P (ix4 b t h w)
      = Ideal.ofBits .f32 0x00000000#32
        + ∑ ij : Fin 16 × Fin 16, eabs (memberAt P b h w t ij.1 - memberAt P b h w t ij.2) := by
  unfold val_main_v12
  simp only [Host.reduceAdd, Ideal.hostReduceAdd_def]
  rw [sum_pairs]
  exact congrArg₂ (· + ·) rfl (Finset.sum_congr rfl fun ij _ => v11_at P b t ij.1 ij.2 h w)

/-- The reference's |step t+1 - step t| of member m at (b, t, m, h, w), t among the first seven steps. -/
theorem v24_at (P : (⟨S2x8x16x128x256, .f32⟩ : BufTy).Contents (Elt Ideal))
    (b : Fin 2) (t : Fin 7) (m : Fin 16) (h : Fin 128) (w : Fin 256) :
    val_main_v24 (F := Ideal) P (ix5 b t m h w) = eabs (memberAt P b h w t.succ m - memberAt P b h w t.castSucc m) := by
  have e21 : idx_main_v21 (ix5 b t m h w) = ix5 b t.succ m h w :=
    funext fun a => Fin.ext (by
      match a with
      | ⟨0, _⟩ => rfl
      | ⟨1, _⟩ => exact Nat.add_comm 1 t.val
      | ⟨2, _⟩ => rfl
      | ⟨3, _⟩ => rfl
      | ⟨4, _⟩ => rfl)
  have e22 : idx_main_v22 (ix5 b t m h w) = ix5 b t.castSucc m h w :=
    funext fun a => Fin.ext (by match a with | ⟨0, _⟩ => rfl | ⟨1, _⟩ => rfl | ⟨2, _⟩ => rfl | ⟨3, _⟩ => rfl | ⟨4, _⟩ => rfl)
  rw [memberAt_of_lt, memberAt_of_lt, val_main_v24_apply, val_main_v23_apply, val_main_v21_apply, val_main_v22_apply,
    e21, e22]
  rfl

/-- The sum over (step, member) of the temporal differences at (b, h, w), from the zero word. -/
theorem v25_at (P : (⟨S2x8x16x128x256, .f32⟩ : BufTy).Contents (Elt Ideal))
    (b : Fin 2) (h : Fin 128) (w : Fin 256) :
    val_main_v25 (F := Ideal) P (ix3 b h w)
      = Ideal.ofBits .f32 0x00000000#32
        + ∑ tm : Fin 7 × Fin 16, eabs (memberAt P b h w tm.1.succ tm.2 - memberAt P b h w tm.1.castSucc tm.2) := by
  unfold val_main_v25
  simp only [Host.reduceAdd, Ideal.hostReduceAdd_def]
  rw [sum_steps]
  exact congrArg₂ (· + ·) rfl (Finset.sum_congr rfl fun tm _ => v24_at P b tm.1 tm.2 h w)

/-- The reference's per-step value (its %17) at (b, t, h, w): the mean distance to the target minus half the mean
    distance between ordered pairs of members. -/
theorem v17_at (P : (⟨S2x8x16x128x256, .f32⟩ : BufTy).Contents (Elt Ideal)) (Y : (⟨S2x8x1x128x256, .f32⟩ : BufTy).Contents (Elt Ideal))
    (b : Fin 2) (t : Fin 8) (h : Fin 128) (w : Fin 256) :
    val_main_v17 (F := Ideal) P Y (ix4 b t h w)
      = Ideal.div (Ideal.ofBits .f32 0x00000000#32 + ∑ m : Fin 16, eabs (memberAt P b h w t m - targetAt Y b h w t))
            (Ideal.ofBits .f32 0x41800000#32)
          - Ideal.ofBits .f32 0x3F000000#32
            * Ideal.div (Ideal.ofBits .f32 0x00000000#32
                + ∑ ij : Fin 16 × Fin 16, eabs (memberAt P b h w t ij.1 - memberAt P b h w t ij.2))
              (Ideal.ofBits .f32 0x43800000#32) := by
  rw [val_main_v17_apply, val_main_v5_apply, val_main_v16_apply, val_main_v14_apply, v3_at, v12_at,
    val_main_v4_apply, val_main_v13_apply, val_main_v15_apply, val_main_cst_0_apply, val_main_cst_2_apply,
    val_main_cst_3_apply]
  rfl

/-- The sum over the eight steps of the per-step values at (b, h, w), from the zero word. -/
theorem v18_at (P : (⟨S2x8x16x128x256, .f32⟩ : BufTy).Contents (Elt Ideal)) (Y : (⟨S2x8x1x128x256, .f32⟩ : BufTy).Contents (Elt Ideal))
    (b : Fin 2) (h : Fin 128) (w : Fin 256) :
    val_main_v18 (F := Ideal) P Y (ix3 b h w)
      = Ideal.ofBits .f32 0x00000000#32 + ∑ t : Fin 8, val_main_v17 (F := Ideal) P Y (ix4 b t h w) := by
  rw [val_main_v18_apply]
  refine congrArg₂ (· + ·) rfl (Finset.sum_congr rfl fun t _ => ?_)
  exact congrArg (val_main_v17 (F := Ideal) P Y)
    (funext fun a => Fin.ext (by match a with | ⟨0, _⟩ => rfl | ⟨1, _⟩ => rfl | ⟨2, _⟩ => rfl | ⟨3, _⟩ => rfl))

/-- The reference's per-pixel array (its %30) at pixel (b, h, w) is refPix of that pixel's members and targets. -/
theorem v30_apply (P : (⟨S2x8x16x128x256, .f32⟩ : BufTy).Contents (Elt Ideal)) (Y : (⟨S2x8x1x128x256, .f32⟩ : BufTy).Contents (Elt Ideal))
    (b : Fin 2) (h : Fin 128) (w : Fin 256) :
    val_main_v30 (F := Ideal) P Y (ix3 b h w) = refPix (memberAt P b h w) (targetAt Y b h w) := by
  rw [val_main_v30_apply, val_main_v20_apply, val_main_v29_apply, val_main_v27_apply, v18_at, v25_at,
    val_main_v19_apply, val_main_v26_apply, val_main_v28_apply, val_main_cst_5_apply, val_main_cst_7_apply,
    val_main_cst_8_apply]
  simp only [v17_at]
  rfl

/-- The indices (b, 0, 0, h, w) of the 2 x 1 x 1 x 128 x 256 array and the pixels (b, h, w) correspond one to one. -/
def pixEquiv : S2x1x1x128x256.Idx ≃ S2x128x256.Idx where
  toFun := idx_main_v31
  invFun i := ix5 (i 0) (0 : Fin 1) (0 : Fin 1) (i 1) (i 2)
  left_inv j := funext fun a => Fin.ext (by
    match a with
    | ⟨0, _⟩ => rfl
    | ⟨1, _⟩ => have h1 : (j 1).val < 1 := (j 1).isLt; show 0 = (j 1).val; omega
    | ⟨2, _⟩ => have h2 : (j 2).val < 1 := (j 2).isLt; show 0 = (j 2).val; omega
    | ⟨3, _⟩ => rfl
    | ⟨4, _⟩ => rfl)
  right_inv i := funext fun a => Fin.ext (by match a with | ⟨0, _⟩ => rfl | ⟨1, _⟩ => rfl | ⟨2, _⟩ => rfl)

/-- The reference's result (its %33): the sum of %30 over the 2 x 128 x 256 pixels, from the zero word, divided by the
    word of 65536. -/
theorem v33_eq (P : (⟨S2x8x16x128x256, .f32⟩ : BufTy).Contents (Elt Ideal)) (Y : (⟨S2x8x1x128x256, .f32⟩ : BufTy).Contents (Elt Ideal)) :
    val_main_v33 (F := Ideal) P Y = fun _ => Ideal.div (Ideal.ofBits .f32 0x00000000#32 + ∑ i : (⟨3, ![2, 128, 256]⟩ : Shape).Idx, val_main_v30 (F := Ideal) P Y i) (Ideal.ofBits .f32 0x47800000#32) := by
  funext i
  rw [val_main_v33_apply, val_main_v32_apply, val_main_cst_10_apply]
  have hs : ∑ j : S2x1x1x128x256.Idx, val_main_v31 (F := Ideal) P Y j = ∑ i : S2x128x256.Idx, val_main_v30 (F := Ideal) P Y i :=
    Fintype.sum_equiv pixEquiv _ _ fun j => val_main_v31_apply P Y j
  rw [hs]
  rfl

end Cert.Crps.RefRead

end
-- ==== Proof.Bridge.lean ====
/-
  When every entry of both arrays is a real number, the loss at a pixel is the same in the kernel's arrangement and in
  the reference's, so the reference's result — the sum of its per-pixel array over all pixels, from the zero word,
  divided by the word of 65536 — is that same expression over the per-pixel loss as the kernel arranges it.
-/
import proofs.«132029_j53455162966139_2_alg».proof.Proof.RefRead
import proofs.«132029_j53455162966139_2_alg».proof.Proof.PixelSpec

noncomputable section

namespace Cert.Crps.Bridge

open Idealize.ShloMosaic Idealize.ShloMosaic.ValueIdx Cert.ReferenceIdeal Cert.ReferenceIdeal.Read Cert.Crps.PixelSpec Cert.Crps.RefRead

/-- With every entry of both arrays a real number, the reference's result is the sum over the pixels of the loss as the kernel arranges it, from the zero word, divided by the word of 65536. -/
theorem ref_result_eq (P : (⟨S2x8x16x128x256, .f32⟩ : BufTy).Contents (Elt Ideal)) (Y : (⟨S2x8x1x128x256, .f32⟩ : BufTy).Contents (Elt Ideal))
    (hP : ∀ i, ∃ r : ℝ, P i = (r : EReal)) (hY : ∀ i, ∃ r : ℝ, Y i = (r : EReal)) :
    val_main_v33 (F := Ideal) P Y = fun _ => Ideal.div (Ideal.ofBits .f32 0x00000000#32 + ∑ i : (⟨3, ![2, 128, 256]⟩ : Shape).Idx, kernelLoss P Y i) (Ideal.ofBits .f32 0x47800000#32) := by
  rw [v33_eq]
  refine funext fun _ => ?_
  refine congrArg (fun s => Ideal.div (Ideal.ofBits .f32 0x00000000#32 + s) (Ideal.ofBits .f32 0x47800000#32)) ?_
  refine Finset.sum_congr rfl fun i _ => ?_
  -- a pixel is (b, h, w)
  obtain ⟨b, h, w, rfl⟩ : ∃ (b : Fin 2) (h : Fin 128) (w : Fin 256), i = ix3 b h w := ⟨i 0, i 1, i 2, eq_ix3 i⟩
  rw [v30_apply]
  show refPix (memberAt P b h w) (targetAt Y b h w) = kernelPix (memberAt P b h w) (targetAt Y b h w)
  -- the members below the sixteenth and the targets there are entries of the arrays, hence real
  refine (pix_eq _ _ (fun t m hm => ?_) (fun t => ?_)).symm
  · unfold memberAt; rw [dif_pos hm]; exact hP _
  · exact hY _

end Cert.Crps.Bridge

end
-- ==== Proof.FiniteEntries.lean ====
/-
  The precondition `(∀ i, |x0 i| < +∞) ∧ (∀ i, |x1 i| < +∞)`, read back at the ideal instance, where a
  float is an extended real: an extended real whose absolute value `max x (-x)` lies strictly below `⊤` is
  neither `⊥` nor `⊤`, hence a real number. The conjunction of the two reductions by `and` being 1 gives
  that comparison at every index of both arrays.
-/
import proofs.«132029_j53455162966139_2_alg».proof.Pre_finite_inputs
import proofs.«132029_j53455162966139_2_alg».proof.Proof.Gen.Pre_finite_inputs
import Idealize.ShloMosaic.PureOps.Ideal
import Idealize.ShloMosaic.Lib.ReduceAll
import Idealize.ShloMosaic.Lib.ValueIdx
import Idealize.ShloMosaic.Lib.IdealHost

noncomputable section

namespace Cert.Crps.FiniteEntries

open Idealize.ShloMosaic

/-- The binary32 pattern with all-ones exponent, zero fraction and sign 0 denotes `+∞`. -/
private theorem ofBits_posInf : Ideal.ofBits .f32 0x7F800000#32 = (⊤ : EReal) := by
  simp [Ideal.ofBits, Ideal.ieee]

/-- An extended real whose absolute value `max x (-x)` is strictly below `⊤` is a real number: at `⊥` and at
    `⊤` the absolute value is `⊤`, and `⊤ < ⊤` is false. -/
private theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- One element of `|x| < broadcast(+∞)` being 1 says that entry of `x` is a real number. -/
private theorem entry_real {s : Shape} (hb : Cert.Pre_finite_inputs.S_.BroadcastsInDim s ![]) (x : FVec Ideal s .f32)
    (i : s.Idx)
    (h : cmpf .olt (Host.absf x)
        (broadcastInDim s ![] hb (constant (F := Ideal) Cert.Pre_finite_inputs.S_ .f32 0x7F800000#32)) i = 1#1) :
    ∃ r : ℝ, x i = (r : EReal) := by
  refine real_of_abs_lt_top (x i) ?_
  have hc : broadcastInDim s ![] hb (constant (F := Ideal) Cert.Pre_finite_inputs.S_ .f32 0x7F800000#32) i
      = (⊤ : EReal) := by
    rw [ValueIdx.broadcastInDim_scalar_apply]; exact ofBits_posInf
  rw [ValueIdx.cmpf_apply, hc] at h
  exact h

/-- Under the precondition every entry of both argument arrays is a real number. -/
theorem real_of_pre (x0 : FVec Ideal Cert.Pre_finite_inputs.S2x8x16x128x256 .f32) (x1 : FVec Ideal Cert.Pre_finite_inputs.S2x8x1x128x256 .f32)
    (h : Cert.Pre_finite_inputs.fn (F := Ideal) x0 x1 = (fun _ => 1#1)) :
    (∀ i, ∃ r : ℝ, x0 i = (r : EReal)) ∧ (∀ i, ∃ r : ℝ, x1 i = (r : EReal)) := by
  -- the rank-0 result has one index
  haveI : Subsingleton Cert.Pre_finite_inputs.S_.Idx := ⟨fun a b => funext fun d => d.elim0⟩
  have h0 := congrFun h ValueIdx.ix0
  dsimp only [Cert.Pre_finite_inputs.fn] at h0
  -- the final `and` is 1: both reductions are 1
  obtain ⟨ha, hb⟩ := IntOp.andi_eq_one.1 h0
  exact ⟨fun i => entry_real _ x0 i (Host.reduce_andi_all _ _ _ _ _ ha i),
    fun i => entry_real _ x1 i (Host.reduce_andi_all _ _ _ _ _ hb i)⟩

end Cert.Crps.FiniteEntries

end
-- ==== Proof.lean ====
/-
  The certificate of a fused ensemble-CRPS loss kernel against its jnp reference, on the extended reals.

  Both programs take predictions p[b, t, m, h, w] (16 members m, 8 steps t) and targets y[b, t, 0, h, w] and return
  one number: the mean over the 2 × 128 × 256 pixels of
      mean_t ( mean_m |p - y|  -  ½ · mean_{i,j} |p_i - p_j| )  +  0.1 · mean_{t<7, m} |p[t+1] - p[t]|.
  The kernel tiles the pixels into 2 × 4 blocks of 32 rows, sums |p_j - p_i| over the unordered pairs i < j only and
  scales by 2⁻⁸ = 1/256, and takes the temporal mean over the members first and the steps second; the reference sums
  over all ordered pairs, halves, and takes one mean over the 7 × 16 (step, member) pairs. For real entries these
  agree pixel by pixel (the ordered-pair sum is twice the unordered one; dividing by 16 then by 7 is dividing by
  112), and the precondition says every entry is real.

  The frames of the two kernel programs are the generated ones; the reference's frame is its generated run with the
  result dropped; the idealization rewrote nothing, so `preserves` is trivial. The value claim: the kernel's result is
  the mean of the kernel-form loss array (Proof/KernelBody, Proof/KernelArray), the reference's result is the mean of
  the reference-form one (Proof/RefRead), and under the precondition (Proof/FiniteEntries) the two are one number
  (Proof/PixelSpec, Proof/Bridge).
-/
import proofs.«132029_j53455162966139_2_alg».proof.Defs
import proofs.«132029_j53455162966139_2_alg».proof.Proof.Gen.Kernel
import proofs.«132029_j53455162966139_2_alg».proof.Proof.Gen.Kernel.Skeleton
import proofs.«132029_j53455162966139_2_alg».proof.Proof.Gen.Kernel.Launch
import proofs.«132029_j53455162966139_2_alg».proof.Proof.Gen.Kernel.Points
import proofs.«132029_j53455162966139_2_alg».proof.Proof.Gen.Kernel.Frame
import proofs.«132029_j53455162966139_2_alg».proof.Proof.Gen.KernelIdeal
import proofs.«132029_j53455162966139_2_alg».proof.Proof.Gen.KernelIdeal.Skeleton
import proofs.«132029_j53455162966139_2_alg».proof.Proof.Gen.KernelIdeal.Launch
import proofs.«132029_j53455162966139_2_alg».proof.Proof.Gen.KernelIdeal.Points
import proofs.«132029_j53455162966139_2_alg».proof.Proof.Gen.KernelIdeal.Frame
import proofs.«132029_j53455162966139_2_alg».proof.Proof.Gen.ReferenceIdeal
import proofs.«132029_j53455162966139_2_alg».proof.Proof.Gen.Pre_finite_inputs
import proofs.«132029_j53455162966139_2_alg».proof.Proof.Gen.ReferenceIdeal.Run
import proofs.«132029_j53455162966139_2_alg».proof.Proof.Gen.ReferenceIdeal.Read
import proofs.«132029_j53455162966139_2_alg».proof.Proof.KernelArray
import proofs.«132029_j53455162966139_2_alg».proof.Proof.Bridge
import proofs.«132029_j53455162966139_2_alg».proof.Proof.FiniteEntries
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the mean over the pixels of the kernel-form loss of the (agreeing, finite) arguments. -/
theorem algebraic : Cert.algebraic_KernelIdeal_ReferenceIdeal := by
  intro m ρ m' ρ' hpre hagree
  refine ⟨fun c => Cert.Crps.KernelArray.meanOf (Cert.Crps.PixelSpec.kernelLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.Crps.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨hP, hY⟩ := Cert.Crps.FiniteEntries.real_of_pre _ _ (hpre c)
  rw [(hagree c).1, (hagree c).2, Cert.ReferenceIdeal.Read.val_main_v33_eq,
    Cert.Crps.Bridge.ref_result_eq _ _ hP hY]
  exact (Cert.Crps.KernelArray.meanOf_eq _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
